-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S64 : Shape := ⟨1, ![64]⟩
abbrev S2048x64x256 : Shape := ⟨3, ![2048, 64, 256]⟩
abbrev S2048x64 : Shape := ⟨2, ![2048, 64]⟩
abbrev S256x32 : Shape := ⟨2, ![256, 32]⟩
abbrev S32 : Shape := ⟨1, ![32]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S2048x64x256 : S_.BroadcastsInDim S2048x64x256 (![] : Fin 0 → Fin S2048x64x256.rank)
  reducesTo_S2048x64x256_S_d0_1_2 : S2048x64x256.ReducesTo [0, 1, 2] S_
  bcast_S_S2048x64 : S_.BroadcastsInDim S2048x64 (![] : Fin 0 → Fin S2048x64.rank)
  reducesTo_S2048x64_S_d0_1 : S2048x64.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S256x32 .f32) (main_arg10 : FVec F S32 .f32) (main_v33 : IVec S_ 1) : IVec S_ 1 :=
  let main_v34 : FVec F S256x32 .f32 := Host.absf main_arg9
  let main_cst_12 : FVec F S_ .f32 := constant S_ .f32 0x7F800000#32
  let main_v35 : FVec F S256x32 .f32 := broadcastInDim S256x32 ![] bcast_S_S256x32 main_cst_12
  let main_v36 : IVec S256x32 1 := cmpf .olt main_v34 main_v35
  let main_c_13 : IVec S_ 1 := constantI S_ 1 1#1
  let main_v37 : IVec S_ 1 := (fun x v => Host.reduce IntOp.andi x v reducesTo_S256x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S2048x64x256 .f32) (main_arg7 : FVec F S2048x64x256 .f32) (main_arg8 : FVec F S2048x64 .f32) (main_arg9 : FVec F S256x32 .f32) (main_arg10 : FVec F S32 .f32) (main_v13 : IVec S_ 1) (main_v16 : IVec S2048x64x256 1) : IVec S_ 1 :=
  let main_c_5 : IVec S_ 1 := constantI S_ 1 1#1
  let main_v17 : IVec S_ 1 := (fun x v => Host.reduce IntOp.andi x v reducesTo_S2048x64x256_S_d0_1_2 h_S_) main_v16 main_c_5
  let main_v18 : IVec S_ 1 := andi main_v13 main_v17
  let main_v19 : FVec F S2048x64x256 .f32 := Host.absf main_arg6
  let main_cst_6 : FVec F S_ .f32 := constant S_ .f32 0x7F800000#32
  let main_v20 : FVec F S2048x64x256 .f32 := broadcastInDim S2048x64x256 ![] bcast_S_S2048x64x256 main_cst_6
  let main_v21 : IVec S2048x64x256 1 := cmpf .olt main_v19 main_v20
  let main_c_7 : IVec S_ 1 := constantI S_ 1 1#1
  let main_v22 : IVec S_ 1 := (fun x v => Host.reduce IntOp.andi x v reducesTo_S2048x64x256_S_d0_1_2 h_S_) main_v21 main_c_7
  let main_v23 : IVec S_ 1 := andi main_v18 main_v22
  let main_v24 : FVec F S2048x64x256 .f32 := Host.absf main_arg7
  let main_cst_8 : FVec F S_ .f32 := constant S_ .f32 0x7F800000#32
  let main_v25 : FVec F S2048x64x256 .f32 := broadcastInDim S2048x64x256 ![] bcast_S_S2048x64x256 main_cst_8
  let main_v26 : IVec S2048x64x256 1 := cmpf .olt main_v24 main_v25
  let main_c_9 : IVec S_ 1 := constantI S_ 1 1#1
  let main_v27 : IVec S_ 1 := (fun x v => Host.reduce IntOp.andi x v reducesTo_S2048x64x256_S_d0_1_2 h_S_) main_v26 main_c_9
  let main_v28 : IVec S_ 1 := andi main_v23 main_v27
  let main_v29 : FVec F S2048x64 .f32 := Host.absf main_arg8
  let main_cst_10 : FVec F S_ .f32 := constant S_ .f32 0x7F800000#32
  let main_v30 : FVec F S2048x64 .f32 := broadcastInDim S2048x64 ![] bcast_S_S2048x64 main_cst_10
  let main_v31 : IVec S2048x64 1 := cmpf .olt main_v29 main_v30
  let main_c_11 : IVec S_ 1 := constantI S_ 1 1#1
  let main_v32 : IVec S_ 1 := (fun x v => Host.reduce IntOp.andi x v reducesTo_S2048x64_S_d0_1 h_S_) main_v31 main_c_11
  let main_v33 : IVec S_ 1 := andi main_v28 main_v32
  fn_part2 (F := F) main_arg9 main_arg10 main_v33

def fn {F : FTy → Type} [FloatOps F] (main_arg0 : IVec S64x2048 32) (main_arg1 : IVec S64 32) (main_arg2 : FVec F S64 .f32) (main_arg3 : FVec F S2048x64x256 .f32) (main_arg4 : FVec F S2048x64x256 .f32) (main_arg5 : FVec F S2048x64x256 .f32) (main_arg6 : FVec F S2048x64x256 .f32) (main_arg7 : FVec F S2048x64x256 .f32) (main_arg8 : FVec F S2048x64 .f32) (main_arg9 : FVec F S256x32 .f32) (main_arg10 : FVec F S32 .f32) : IVec S_ 1 :=
  let main_v0 : FVec F S64 .f32 := Host.absf main_arg2
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S2048x64x256 .f32 := Host.absf main_arg3
  let main_cst_0 : FVec F S_ .f32 := constant S_ .f32 0x7F800000#32
  let main_v5 : FVec F S2048x64x256 .f32 := broadcastInDim S2048x64x256 ![] bcast_S_S2048x64x256 main_cst_0
  let main_v6 : IVec S2048x64x256 1 := cmpf .olt main_v4 main_v5
  let main_c_1 : IVec S_ 1 := constantI S_ 1 1#1
  let main_v7 : IVec S_ 1 := (fun x v => Host.reduce IntOp.andi x v reducesTo_S2048x64x256_S_d0_1_2 h_S_) main_v6 main_c_1
  let main_v8 : IVec S_ 1 := andi main_v3 main_v7
  let main_v9 : FVec F S2048x64x256 .f32 := Host.absf main_arg4
  let main_cst_2 : FVec F S_ .f32 := constant S_ .f32 0x7F800000#32
  let main_v10 : FVec F S2048x64x256 .f32 := broadcastInDim S2048x64x256 ![] bcast_S_S2048x64x256 main_cst_2
  let main_v11 : IVec S2048x64x256 1 := cmpf .olt main_v9 main_v10
  let main_c_3 : IVec S_ 1 := constantI S_ 1 1#1
  let main_v12 : IVec S_ 1 := (fun x v => Host.reduce IntOp.andi x v reducesTo_S2048x64x256_S_d0_1_2 h_S_) main_v11 main_c_3
  let main_v13 : IVec S_ 1 := andi main_v8 main_v12
  let main_v14 : FVec F S2048x64x256 .f32 := Host.absf main_arg5
  let main_cst_4 : FVec F S_ .f32 := constant S_ .f32 0x7F800000#32
  let main_v15 : FVec F S2048x64x256 .f32 := broadcastInDim S2048x64x256 ![] bcast_S_S2048x64x256 main_cst_4
  let main_v16 : IVec S2048x64x256 1 := cmpf .olt main_v14 main_v15
  fn_part1 (F := F) main_arg6 main_arg7 main_arg8 main_arg9 main_arg10 main_v13 main_v16
-- ==== Kernel.lean ====
abbrev S64x2048 : Shape := ⟨2, ![64, 2048]⟩
abbrev S64 : Shape := ⟨1, ![64]⟩
abbrev S2048x64x256 : Shape := ⟨3, ![2048, 64, 256]⟩
abbrev S2048x64 : Shape := ⟨2, ![2048, 64]⟩
abbrev S256x32 : Shape := ⟨2, ![256, 32]⟩
abbrev S32 : Shape := ⟨1, ![32]⟩
abbrev S2048x64x32 : Shape := ⟨3, ![2048, 64, 32]⟩
abbrev S16x64x256 : Shape := ⟨3, ![16, 64, 256]⟩
abbrev S16x64 : Shape := ⟨2, ![16, 64]⟩
abbrev S16x64x32 : Shape := ⟨3, ![16, 64, 32]⟩
abbrev S1024x256 : Shape := ⟨2, ![1024, 256]⟩
abbrev S1024x32 : Shape := ⟨2, ![1024, 32]⟩
abbrev S1x32 : Shape := ⟨2, ![1, 32]⟩
abbrev S16x64x1 : Shape := ⟨3, ![16, 64, 1]⟩
abbrev S1024 : Shape := ⟨1, ![1024]⟩
abbrev S2048 : Shape := ⟨1, ![2048]⟩
abbrev S1x2048 : Shape := ⟨2, ![1, 2048]⟩
abbrev S64x1 : Shape := ⟨2, ![64, 1]⟩
abbrev S64x2047 : Shape := ⟨2, ![64, 2047]⟩
abbrev S64x2048x32 : Shape := ⟨3, ![64, 2048, 32]⟩
abbrev S64x2048x1 : Shape := ⟨3, ![64, 2048, 1]⟩
abbrev S_ : Shape := ⟨0, ![]⟩
abbrev S64x2048x1x1 : Shape := ⟨4, ![64, 2048, 1, 1]⟩
abbrev S1 : Shape := ⟨1, ![1]⟩
abbrev S1x1x1x1 : Shape := ⟨4, ![1, 1, 1, 1]⟩

abbrev nBuf : Space → Nat
  | .hbm => 67
  | .vmem => 18
  | .smem => 0
  | _ => 0

abbrev bufTy : (tb : Table) → Fin (tcTables nBuf tb) → BufTy
  | .hbm, ⟨0, _⟩ => ⟨S64x2048, .i32⟩
  | .hbm, ⟨1, _⟩ => ⟨S64, .i32⟩
  | .hbm, ⟨2, _⟩ => ⟨S64, .f32⟩
  | .hbm, ⟨3, _⟩ => ⟨S2048x64x256, .f32⟩
  | .hbm, ⟨4, _⟩ => ⟨S2048x64x256, .f32⟩
  | .hbm, ⟨5, _⟩ => ⟨S2048x64x256, .f32⟩
  | .hbm, ⟨6, _⟩ => ⟨S2048x64x256, .f32⟩
  | .hbm, ⟨7, _⟩ => ⟨S2048x64x256, .f32⟩
  | .hbm, ⟨8, _⟩ => ⟨S2048x64, .f32⟩
  | .hbm, ⟨9, _⟩ => ⟨S256x32, .f32⟩
  | .hbm, ⟨10, _⟩ => ⟨S32, .f32⟩
  | .hbm, ⟨11, _⟩ => ⟨S2048x64x32, .f32⟩
  | .hbm, ⟨12, _⟩ => ⟨S2048x64, .f32⟩
  | .hbm, ⟨13, _⟩ => ⟨S2048, .i32⟩
  | .hbm, ⟨14, _⟩ => ⟨S1x2048, .i32⟩
  | .hbm, ⟨15, _⟩ => ⟨S64x1, .i32⟩
  | .hbm, ⟨16, _⟩ => ⟨S64x2048, .i32⟩
  | .hbm, ⟨17, _⟩ => ⟨S64x2048, .i32⟩
  | .hbm, ⟨18, _⟩ => ⟨S64x2048, .i1⟩
  | .hbm, ⟨19, _⟩ => ⟨S64x2047, .i32⟩
  | .hbm, ⟨20, _⟩ => ⟨S64x1, .i32⟩
  | .hbm, ⟨21, _⟩ => ⟨S64x2048, .i32⟩
  | .hbm, ⟨22, _⟩ => ⟨S64x2048x32, .f32⟩
  | .hbm, ⟨23, _⟩ => ⟨S64x2048x1, .i32⟩
  | .hbm, ⟨24, _⟩ => ⟨S_, .i32⟩
  | .hbm, ⟨25, _⟩ => ⟨S64x2048x1, .i32⟩
  | .hbm, ⟨26, _⟩ => ⟨S64x2048x1, .i1⟩
  | .hbm, ⟨27, _⟩ => ⟨S_, .i32⟩
  | .hbm, ⟨28, _⟩ => ⟨S64x2048x1, .i32⟩
  | .hbm, ⟨29, _⟩ => ⟨S64x2048x1, .i32⟩
  | .hbm, ⟨30, _⟩ => ⟨S64x2048x1, .i32⟩
  | .hbm, ⟨31, _⟩ => ⟨S64x2048x1x1, .i32⟩
  | .hbm, ⟨32, _⟩ => ⟨S1, .i32⟩
  | .hbm, ⟨33, _⟩ => ⟨S_, .i32⟩
  | .hbm, ⟨34, _⟩ => ⟨S64x2048x1x1, .i32⟩
  | .hbm, ⟨35, _⟩ => ⟨S64x2048x1x1, .i1⟩
  | .hbm, ⟨36, _⟩ => ⟨S1x1x1x1, .i32⟩
  | .hbm, ⟨37, _⟩ => ⟨S64x2048x1x1, .i32⟩
  | .hbm, ⟨38, _⟩ => ⟨S64x2048x1x1, .i1⟩
  | .hbm, ⟨39, _⟩ => ⟨S64x2048x1x1, .i1⟩
  | .hbm, ⟨40, _⟩ => ⟨S_, .i1⟩
  | .hbm, ⟨41, _⟩ => ⟨S64x2048x1, .i1⟩
  | .hbm, ⟨42, _⟩ => ⟨S64x2048x1, .f32⟩
  | .hbm, ⟨43, _⟩ => ⟨S_, .f32⟩
  | .hbm, ⟨44, _⟩ => ⟨S64x2048x1, .f32⟩
  | .hbm, ⟨45, _⟩ => ⟨S64x2048x1, .f32⟩
  | .hbm, ⟨46, _⟩ => ⟨S64x2048, .f32⟩
  | .hbm, ⟨47, _⟩ => ⟨S_, .f32⟩
  | .hbm, ⟨48, _⟩ => ⟨S_, .f32⟩
  | .hbm, ⟨49, _⟩ => ⟨S64x2048, .f32⟩
  | .hbm, ⟨50, _⟩ => ⟨S64x2048, .f32⟩
  | .hbm, ⟨51, _⟩ => ⟨S_, .f32⟩
  | .hbm, ⟨52, _⟩ => ⟨S_, .f32⟩
  | .hbm, ⟨53, _⟩ => ⟨S64x2048, .f32⟩
  | .hbm, ⟨54, _⟩ => ⟨S_, .f32⟩
  | .hbm, ⟨55, _⟩ => ⟨S_, .f32⟩
  | .hbm, ⟨56, _⟩ => ⟨S64x2048, .f32⟩
  | .hbm, ⟨57, _⟩ => ⟨S64x2048, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .local _ .vmem, ⟨0, _⟩ => ⟨S16x64x256, .f32⟩
  | .local _ .vmem, ⟨1, _⟩ => ⟨S16x64x256, .f32⟩
  | .local _ .vmem, ⟨2, _⟩ => ⟨S16x64x256, .f32⟩
  | .local _ .vmem, ⟨3, _⟩ => ⟨S16x64x256, .f32⟩
  | .local _ .vmem, ⟨4, _⟩ => ⟨S16x64x256, .f32⟩
  | .local _ .vmem, ⟨5, _⟩ => ⟨S16x64x256, .f32⟩
  | .local _ .vmem, ⟨6, _⟩ => ⟨S16x64x256, .f32⟩
  | .local _ .vmem, ⟨7, _⟩ => ⟨S16x64x256, .f32⟩
  | .local _ .vmem, ⟨8, _⟩ => ⟨S16x64x256, .f32⟩
  | .local _ .vmem, ⟨9, _⟩ => ⟨S16x64x256, .f32⟩
  | .local _ .vmem, ⟨10, _⟩ => ⟨S16x64, .f32⟩
  | .local _ .vmem, ⟨11, _⟩ => ⟨S16x64, .f32⟩
  | .local _ .vmem, ⟨12, _⟩ => ⟨S256x32, .f32⟩
  | .local _ .vmem, ⟨13, _⟩ => ⟨S32, .f32⟩
  | .local _ .vmem, ⟨14, _⟩ => ⟨S16x64x32, .f32⟩
  | .local _ .vmem, ⟨15, _⟩ => ⟨S16x64x32, .f32⟩
  | .local _ .vmem, ⟨16, _⟩ => ⟨S16x64, .f32⟩
  | .local _ .vmem, ⟨17, _⟩ => ⟨S16x64, .f32⟩
  | _, _ => ⟨S64x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v12 : Ref sig .tc := ⟨.hbm, 45, rfl⟩
abbrev main_v13 : Ref sig .tc := ⟨.hbm, 46, rfl⟩
abbrev main_cst : Ref sig .tc := ⟨.hbm, 47, rfl⟩
abbrev main_call1_v0 : Ref sig .tc := ⟨.hbm, 48, rfl⟩
abbrev main_call1_v1 : Ref sig .tc := ⟨.hbm, 49, rfl⟩
abbrev main_v14 : Ref sig .tc := ⟨.hbm, 50, rfl⟩
abbrev main_cst_0 : Ref sig .tc := ⟨.hbm, 51, rfl⟩
abbrev main_v15 : Ref sig .tc := ⟨.hbm, 52, rfl⟩
abbrev main_v16 : Ref sig .tc := ⟨.hbm, 53, rfl⟩
abbrev main_cst_1 : Ref sig .tc := ⟨.hbm, 54, rfl⟩
abbrev main_call2_v0 : Ref sig .tc := ⟨.hbm, 55, rfl⟩
abbrev main_call2_v1 : Ref sig .tc := ⟨.hbm, 56, rfl⟩
abbrev main_v17 : Ref sig .tc := ⟨.hbm, 57, rfl⟩
abbrev main_cst_2 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_cst_3 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x64x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S256x32_S256x32_0_0 : ∀ a, (![0, 0] : Fin 2 → Nat) a + S256x32.size a ≤ S256x32.size a
  h_S256x32 : 0 < S256x32.numel
  bitsLt_bf16_f32 : FTy.bits .bf16 < FTy.bits .f32
  inb_S32_S32_0 : ∀ a, (![0] : Fin 1 → Nat) a + S32.size a ≤ S32.size a
  h_S32 : 0 < S32.numel
  inb_S16x64x256_S16x64x256_0_0_0 : ∀ a, (![0, 0, 0] : Fin 3 → Nat) a + S16x64x256.size a ≤ S16x64x256.size a
  h_S16x64x256 : 0 < S16x64x256.numel
  shapeCasts_S16x64x256_S1024x256 : S16x64x256.ShapeCasts S1024x256
  shapeCasts_S32_S1x32 : S32.ShapeCasts S1x32
  broadcasts_S1x32_S1024x32 : S1x32.Broadcasts S1024x32
  shapeCasts_S1024x32_S16x64x32 : S1024x32.ShapeCasts S16x64x32
  inb_S16x64x32_S16x64x32_0_0_0 : ∀ a, (![0, 0, 0] : Fin 3 → Nat) a + S16x64x32.size a ≤ S16x64x32.size a
  h_S16x64x32 : 0 < S16x64x32.numel
  inb_S16x64_S16x64_0_0 : ∀ a, (![0, 0] : Fin 2 → Nat) a + S16x64.size a ≤ S16x64.size a
  h_S16x64 : 0 < S16x64.numel
  shapeCasts_S16x64_S16x64x1 : S16x64.ShapeCasts S16x64x1
  broadcasts_S16x64x1_S16x64x256 : S16x64x1.Broadcasts S16x64x256
  reduces_S1024x32_S1024 : S1024x32.Reduces [1] S1024
  shapeCasts_S1024_S16x64 : S1024.ShapeCasts S16x64
  bcast_S2048_S1x2048_1 : S2048.BroadcastsInDim S1x2048 (![1] : Fin 1 → Fin S1x2048.rank)
  bcast_S64_S64x1_0 : S64.BroadcastsInDim S64x1 (![0] : Fin 1 → Fin S64x1.rank)
  bcast_S1x2048_S64x2048_0_1 : S1x2048.BroadcastsInDim S64x2048 (![0, 1] : Fin 2 → Fin S64x2048.rank)
  bcast_S64x1_S64x2048_0_1 : S64x1.BroadcastsInDim S64x2048 (![0, 1] : Fin 2 → Fin S64x2048.rank)
  slices_S64x2048_S64x2047_0_1 : S64x2048.Slices ![0, 1] S64x2047
  slices_S64x2048_S64x1_0_0 : S64x2048.Slices ![0, 0] S64x1
  concatenates_S64x2047_S64x1_S64x2048_d1 : Shape.Concatenates [S64x2047, S64x1] S64x2048 1
  transposes_S2048x64x32_S64x2048x32_1_0_2 : S2048x64x32.Transposes [1, 0, 2] S64x2048x32
  bcast_S64x2048_S64x2048x1_0_1 : S64x2048.BroadcastsInDim S64x2048x1 (![0, 1] : Fin 2 → Fin S64x2048x1.rank)
  bcast_S_S64x2048x1 : S_.BroadcastsInDim S64x2048x1 (![] : Fin 0 → Fin S64x2048x1.rank)
  shapeCasts_S64x2048x1_S64x2048x1x1 : S64x2048x1.ShapeCasts S64x2048x1x1
  bcast_S_S64x2048x1x1 : S_.BroadcastsInDim S64x2048x1x1 (![] : Fin 0 → Fin S64x2048x1x1.rank)
  bcast_S1_S1x1x1x1_3 : S1.BroadcastsInDim S1x1x1x1 (![3] : Fin 1 → Fin S1x1x1x1.rank)
  bcast_S1x1x1x1_S64x2048x1x1_0_1_2_3 : S1x1x1x1.BroadcastsInDim S64x2048x1x1 (![0, 1, 2, 3] : Fin 4 → Fin S64x2048x1x1.rank)
  reducesTo_S64x2048x1x1_S64x2048x1_d3 : S64x2048x1x1.ReducesTo [3] S64x2048x1
  h_S_ : 0 < S_.numel
  shapeCasts_S64x2048x1_S64x2048 : S64x2048x1.ShapeCasts S64x2048
  bcast_S_S64x2048 : S_.BroadcastsInDim S64x2048 (![] : Fin 0 → Fin S64x2048.rank)
  reducesTo_S64x2048_S_d0_1 : S64x2048.ReducesTo [0, 1] S_
  transposes_S2048x64_S64x2048_1_0 : S2048x64.Transposes [1, 0] S64x2048
  reducesTo_S64x2048_S64_d1 : S64x2048.ReducesTo [1] S64
  reducesTo_S64_S_d0 : S64.ReducesTo [0] S_
  dot_S1024x256_S256x32_S1024x32_1_0_0_1_n_n_wf : DotDims.WF S1024x256 S256x32 S1024x32 [1] [0] [0] [1] [] []
  gather_S64x2048x32_S64x2048x1x1_S64x2048x1_n_2_01_01_2_3_111_wf : GatherDims.WF S64x2048x32 S64x2048x1x1 S64x2048x1 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x256.size a ≤ S2048x64x256.size a
  hwx0_0 : ∀ i : grid0.Coords, EltTy.bits .f32 = 32 ∨ (Rect.block (s := S2048x64x256) S16x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64x256.size a ≤ S2048x64x256.size a
  hwx0_1 : ∀ i : grid0.Coords, EltTy.bits .f32 = 32 ∨ (Rect.block (s := S2048x64x256) S16x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x64x256.size a ≤ S2048x64x256.size a
  hwx0_2 : ∀ i : grid0.Coords, EltTy.bits .f32 = 32 ∨ (Rect.block (s := S2048x64x256) S16x64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64x256.size a ≤ S2048x64x256.size a
  hwx0_3 : ∀ i : grid0.Coords, EltTy.bits .f32 = 32 ∨ (Rect.block (s := S2048x64x256) S16x64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x64x256.size a ≤ S2048x64x256.size a
  hwx0_4 : ∀ i : grid0.Coords, EltTy.bits .f32 = 32 ∨ (Rect.block (s := S2048x64x256) S16x64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S2048x64.size a
  hwx0_5 : ∀ i : grid0.Coords, EltTy.bits .f32 = 32 ∨ (Rect.block (s := S2048x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S256x32.size a
  hwx0_6 : ∀ i : grid0.Coords, EltTy.bits .f32 = 32 ∨ (Rect.block (s := S256x32) S256x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x64x32.size a ≤ S2048x64x32.size a
  hwx0_8 : ∀ i : grid0.Coords, EltTy.bits .f32 = 32 ∨ (Rect.block (s := S2048x64x32) S16x64x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x64.size a ≤ S2048x64.size a
  hwx0_9 : ∀ i : grid0.Coords, EltTy.bits .f32 = 32 ∨ (Rect.block (s := S2048x64) S16x64.size (cc0_transform_9 i) (hinb0_9 i)).WholeWords (EltTy.packing .f32)

variable [Facts₀]

def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def gather_S64x2048x32_S64x2048x1x1_S64x2048x1_n_2_01_01_2_3_111 : GatherDims S64x2048x32 S64x2048x1x1 S64x2048x1 where
  offsetDims := []
  collapsedSliceDims := [2]
  operandBatchingDims := [0, 1]
  startIndicesBatchingDims := [0, 1]
  startIndexMap := [2]
  indexVectorDim := 3
  sliceSizes := ![1, 1, 1]
  wf := gather_S64x2048x32_S64x2048x1x1_S64x2048x1_n_2_01_01_2_3_111_wf

abbrev win0_0 : Pipeline.Window sig grid0 :=
  Pipeline.Window.ofSpec (Memref.whole main_arg3) S16x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S16x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S16x64x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S16x64x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S16x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S256x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S16x64x32.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S16x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x2048 : Shape := ⟨2, ![64, 2048]⟩
abbrev S64 : Shape := ⟨1, ![64]⟩
abbrev S2048x64x256 : Shape := ⟨3, ![2048, 64, 256]⟩
abbrev S2048x64 : Shape := ⟨2, ![2048, 64]⟩
abbrev S256x32 : Shape := ⟨2, ![256, 32]⟩
abbrev S32 : Shape := ⟨1, ![32]⟩
abbrev S2048x64x32 : Shape := ⟨3, ![2048, 64, 32]⟩
abbrev S1x1x32 : Shape := ⟨3, ![1, 1, 32]⟩
abbrev S_ : Shape := ⟨0, ![]⟩
abbrev S2048 : Shape := ⟨1, ![2048]⟩
abbrev S1x2048 : Shape := ⟨2, ![1, 2048]⟩
abbrev S64x1 : Shape := ⟨2, ![64, 1]⟩
abbrev S64x2047 : Shape := ⟨2, ![64, 2047]⟩
abbrev S64x2048x32 : Shape := ⟨3, ![64, 2048, 32]⟩
abbrev S64x2048x1 : Shape := ⟨3, ![64, 2048, 1]⟩
abbrev S64x2048x1x1 : Shape := ⟨4, ![64, 2048, 1, 1]⟩
abbrev S1 : Shape := ⟨1, ![1]⟩
abbrev S1x1x1x1 : Shape := ⟨4, ![1, 1, 1, 1]⟩
abbrev S2048x64x1 : Shape := ⟨3, ![2048, 64, 1]⟩

abbrev nBuf : Space → Nat
  | .hbm => 114
  | .vmem => 0
  | .smem => 0
  | _ => 0

abbrev bufTy : (tb : Table) → Fin (tcTables nBuf tb) → BufTy
  | .hbm, ⟨0, _⟩ => ⟨S64x2048, .i32⟩
  | .hbm, ⟨1, _⟩ => ⟨S64, .i32⟩
  | .hbm, ⟨2, _⟩ => ⟨S64, .f32⟩
  | .hbm, ⟨3, _⟩ => ⟨S2048x64x256, .f32⟩
  | .hbm, ⟨4, _⟩ => ⟨S2048x64x256, .f32⟩
  | .hbm, ⟨5, _⟩ => ⟨S2048x64x256, .f32⟩
  | .hbm, ⟨6, _⟩ => ⟨S2048x64x256, .f32⟩
  | .hbm, ⟨7, _⟩ => ⟨S2048x64x256, .f32⟩
  | .hbm, ⟨8, _⟩ => ⟨S2048x64, .f32⟩
  | .hbm, ⟨9, _⟩ => ⟨S256x32, .f32⟩
  | .hbm, ⟨10, _⟩ => ⟨S32, .f32⟩
  | .hbm, ⟨11, _⟩ => ⟨S2048x64x32, .f32⟩
  | .hbm, ⟨12, _⟩ => ⟨S1x1x32, .f32⟩
  | .hbm, ⟨13, _⟩ => ⟨S2048x64x32, .f32⟩
  | .hbm, ⟨14, _⟩ => ⟨S2048x64x32, .f32⟩
  | .hbm, ⟨15, _⟩ => ⟨S_, .f32⟩
  | .hbm, ⟨16, _⟩ => ⟨S2048x64x32, .f32⟩
  | .hbm, ⟨17, _⟩ => ⟨S2048x64x32, .f32⟩
  | .hbm, ⟨18, _⟩ => ⟨S2048x64x32, .f32⟩
  | .hbm, ⟨19, _⟩ => ⟨S2048x64x32, .f32⟩
  | .hbm, ⟨20, _⟩ => ⟨S2048x64x32, .i1⟩
  | .hbm, ⟨21, _⟩ => ⟨S2048x64x32, .f32⟩
  | .hbm, ⟨22, _⟩ => ⟨S2048x64x32, .f32⟩
  | .hbm, ⟨23, _⟩ => ⟨S2048x64x32, .f32⟩
  | .hbm, ⟨24, _⟩ => ⟨S2048x64x32, .f32⟩
  | .hbm, ⟨25, _⟩ => ⟨S2048x64x32, .f32⟩
  | .hbm, ⟨26, _⟩ => ⟨S2048x64x32, .f32⟩
  | .hbm, ⟨27, _⟩ => ⟨S2048x64x32, .f32⟩
  | .hbm, ⟨28, _⟩ => ⟨S2048x64x32, .f32⟩
  | .hbm, ⟨29, _⟩ => ⟨S2048x64x32, .f32⟩
  | .hbm, ⟨30, _⟩ => ⟨S2048, .i32⟩
  | .hbm, ⟨31, _⟩ => ⟨S1x2048, .i32⟩
  | .hbm, ⟨32, _⟩ => ⟨S64x1, .i32⟩
  | .hbm, ⟨33, _⟩ => ⟨S64x2048, .i32⟩
  | .hbm, ⟨34, _⟩ => ⟨S64x2048, .i32⟩
  | .hbm, ⟨35, _⟩ => ⟨S64x2048, .i1⟩
  | .hbm, ⟨36, _⟩ => ⟨S64x2047, .i32⟩
  | .hbm, ⟨37, _⟩ => ⟨S64x1, .i32⟩
  | .hbm, ⟨38, _⟩ => ⟨S64x2048, .i32⟩
  | .hbm, ⟨39, _⟩ => ⟨S64x2048x32, .f32⟩
  | .hbm, ⟨40, _⟩ => ⟨S64x2048x1, .i32⟩
  | .hbm, ⟨41, _⟩ => ⟨S_, .i32⟩
  | .hbm, ⟨42, _⟩ => ⟨S64x2048x1, .i32⟩
  | .hbm, ⟨43, _⟩ => ⟨S64x2048x1, .i1⟩
  | .hbm, ⟨44, _⟩ => ⟨S_, .i32⟩
  | .hbm, ⟨45, _⟩ => ⟨S64x2048x1, .i32⟩
  | .hbm, ⟨46, _⟩ => ⟨S64x2048x1, .i32⟩
  | .hbm, ⟨47, _⟩ => ⟨S64x2048x1, .i32⟩
  | .hbm, ⟨48, _⟩ => ⟨S64x2048x1x1, .i32⟩
  | .hbm, ⟨49, _⟩ => ⟨S1, .i32⟩
  | .hbm, ⟨50, _⟩ => ⟨S_, .i32⟩
  | .hbm, ⟨51, _⟩ => ⟨S64x2048x1x1, .i32⟩
  | .hbm, ⟨52, _⟩ => ⟨S64x2048x1x1, .i1⟩
  | .hbm, ⟨53, _⟩ => ⟨S1x1x1x1, .i32⟩
  | .hbm, ⟨54, _⟩ => ⟨S64x2048x1x1, .i32⟩
  | .hbm, ⟨55, _⟩ => ⟨S64x2048x1x1, .i1⟩
  | .hbm, ⟨56, _⟩ => ⟨S64x2048x1x1, .i1⟩
  | .hbm, ⟨57, _⟩ => ⟨S_, .i1⟩
  | .hbm, ⟨58, _⟩ => ⟨S64x2048x1, .i1⟩
  | .hbm, ⟨59, _⟩ => ⟨S64x2048x1, .f32⟩
  | .hbm, ⟨60, _⟩ => ⟨S_, .f32⟩
  | .hbm, ⟨61, _⟩ => ⟨S64x2048x1, .f32⟩
  | .hbm, ⟨62, _⟩ => ⟨S64x2048x1, .f32⟩
  | .hbm, ⟨63, _⟩ => ⟨S64x2048, .f32⟩
  | .hbm, ⟨64, _⟩ => ⟨S_, .f32⟩
  | .hbm, ⟨65, _⟩ => ⟨S_, .f32⟩
  | .hbm, ⟨66, _⟩ => ⟨S64x2048, .f32⟩
  | .hbm, ⟨67, _⟩ => ⟨S64x2048, .f32⟩
  | .hbm, ⟨68, _⟩ => ⟨S_, .f32⟩
  | .hbm, ⟨69, _⟩ => ⟨S_, .f32⟩
  | .hbm, ⟨70, _⟩ => ⟨S2048x64x256, .f32⟩
  | .hbm, ⟨71, _⟩ => ⟨S2048x64x256, .f32⟩
  | .hbm, ⟨72, _⟩ => ⟨S2048x64x1, .f32⟩
  | .hbm, ⟨73, _⟩ => ⟨S2048x64x256, .f32⟩
  | .hbm, ⟨74, _⟩ => ⟨S2048x64x256, .f32⟩
  | .hbm, ⟨75, _⟩ => ⟨S2048x64x256, .f32⟩
  | .hbm, ⟨76, _⟩ => ⟨S2048x64x256, .f32⟩
  | .hbm, ⟨77, _⟩ => ⟨S2048x64x256, .f32⟩
  | .hbm, ⟨78, _⟩ => ⟨S2048x64x256, .f32⟩
  | .hbm, ⟨79, _⟩ => ⟨S2048x64x256, .f32⟩
  | .hbm, ⟨80, _⟩ => ⟨S2048x64x32, .f32⟩
  | .hbm, ⟨81, _⟩ => ⟨S1x1x32, .f32⟩
  | .hbm, ⟨82, _⟩ => ⟨S2048x64x32, .f32⟩
  | .hbm, ⟨83, _⟩ => ⟨S2048x64x32, .f32⟩
  | .hbm, ⟨84, _⟩ => ⟨S_, .f32⟩
  | .hbm, ⟨85, _⟩ => ⟨S2048x64x32, .f32⟩
  | .hbm, ⟨86, _⟩ => ⟨S2048x64x32, .f32⟩
  | .hbm, ⟨87, _⟩ => ⟨S2048x64x32, .f32⟩
  | .hbm, ⟨88, _⟩ => ⟨S2048x64x32, .f32⟩
  | .hbm, ⟨89, _⟩ => ⟨S2048x64x32, .i1⟩
  | .hbm, ⟨90, _⟩ => ⟨S2048x64x32, .f32⟩
  | .hbm, ⟨91, _⟩ => ⟨S2048x64x32, .f32⟩
  | .hbm, ⟨92, _⟩ => ⟨S2048x64x32, .f32⟩
  | .hbm, ⟨93, _⟩ => ⟨S2048x64x32, .f32⟩
  | .hbm, ⟨94, _⟩ => ⟨S2048x64x32, .f32⟩
  | .hbm, ⟨95, _⟩ => ⟨S2048x64x32, .f32⟩
  | .hbm, ⟨96, _⟩ => ⟨S2048x64x32, .f32⟩
  | .hbm, ⟨97, _⟩ => ⟨S2048x64x32, .f32⟩
  | .hbm, ⟨98, _⟩ => ⟨S_, .f32⟩
  | .hbm, ⟨99, _⟩ => ⟨S2048x64, .f32⟩
  | .hbm, ⟨100, _⟩ => ⟨S64x2048, .f32⟩
  | .hbm, ⟨101, _⟩ => ⟨S_, .f32⟩
  | .hbm, ⟨102, _⟩ => ⟨S_, .f32⟩
  | .hbm, ⟨103, _⟩ => ⟨S64x2048, .f32⟩
  | .hbm, ⟨104, _⟩ => ⟨S64x2048, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64, .f32⟩
  | .hbm, ⟨109, _⟩ => ⟨S64, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v17 : Ref sig .tc := ⟨.hbm, 62, rfl⟩
abbrev main_v18 : Ref sig .tc := ⟨.hbm, 63, rfl⟩
abbrev main_cst : Ref sig .tc := ⟨.hbm, 64, rfl⟩
abbrev main_call2_v0 : Ref sig .tc := ⟨.hbm, 65, rfl⟩
abbrev main_call2_v1 : Ref sig .tc := ⟨.hbm, 66, rfl⟩
abbrev main_v19 : Ref sig .tc := ⟨.hbm, 67, rfl⟩
abbrev main_cst_0 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_call3_cst : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_v35 : Ref sig .tc := ⟨.hbm, 97, rfl⟩
abbrev main_cst_1 : Ref sig .tc := ⟨.hbm, 98, rfl⟩
abbrev main_v36 : Ref sig .tc := ⟨.hbm, 99, rfl⟩
abbrev main_v37 : Ref sig .tc := ⟨.hbm, 100, rfl⟩
abbrev main_cst_2 : Ref sig .tc := ⟨.hbm, 101, rfl⟩
abbrev main_call4_v0 : Ref sig .tc := ⟨.hbm, 102, rfl⟩
abbrev main_call4_v1 : Ref sig .tc := ⟨.hbm, 103, rfl⟩
abbrev main_v38 : Ref sig .tc := ⟨.hbm, 104, rfl⟩
abbrev main_cst_3 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_cst_4 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S2048x64x32_0_1_2 : S1x1x32.BroadcastsInDim S2048x64x32 (![0, 1, 2] : Fin 3 → Fin S2048x64x32.rank)
  bcast_S_S2048x64x32 : S_.BroadcastsInDim S2048x64x32 (![] : Fin 0 → Fin S2048x64x32.rank)
  bcast_S2048_S1x2048_1 : S2048.BroadcastsInDim S1x2048 (![1] : Fin 1 → Fin S1x2048.rank)
  bcast_S64_S64x1_0 : S64.BroadcastsInDim S64x1 (![0] : Fin 1 → Fin S64x1.rank)
  bcast_S1x2048_S64x2048_0_1 : S1x2048.BroadcastsInDim S64x2048 (![0, 1] : Fin 2 → Fin S64x2048.rank)
  bcast_S64x1_S64x2048_0_1 : S64x1.BroadcastsInDim S64x2048 (![0, 1] : Fin 2 → Fin S64x2048.rank)
  slices_S64x2048_S64x2047_0_1 : S64x2048.Slices ![0, 1] S64x2047
  slices_S64x2048_S64x1_0_0 : S64x2048.Slices ![0, 0] S64x1
  concatenates_S64x2047_S64x1_S64x2048_d1 : Shape.Concatenates [S64x2047, S64x1] S64x2048 1
  transposes_S2048x64x32_S64x2048x32_1_0_2 : S2048x64x32.Transposes [1, 0, 2] S64x2048x32
  bcast_S64x2048_S64x2048x1_0_1 : S64x2048.BroadcastsInDim S64x2048x1 (![0, 1] : Fin 2 → Fin S64x2048x1.rank)
  bcast_S_S64x2048x1 : S_.BroadcastsInDim S64x2048x1 (![] : Fin 0 → Fin S64x2048x1.rank)
  shapeCasts_S64x2048x1_S64x2048x1x1 : S64x2048x1.ShapeCasts S64x2048x1x1
  bcast_S_S64x2048x1x1 : S_.BroadcastsInDim S64x2048x1x1 (![] : Fin 0 → Fin S64x2048x1x1.rank)
  bcast_S1_S1x1x1x1_3 : S1.BroadcastsInDim S1x1x1x1 (![3] : Fin 1 → Fin S1x1x1x1.rank)
  bcast_S1x1x1x1_S64x2048x1x1_0_1_2_3 : S1x1x1x1.BroadcastsInDim S64x2048x1x1 (![0, 1, 2, 3] : Fin 4 → Fin S64x2048x1x1.rank)
  reducesTo_S64x2048x1x1_S64x2048x1_d3 : S64x2048x1x1.ReducesTo [3] S64x2048x1
  h_S_ : 0 < S_.numel
  shapeCasts_S64x2048x1_S64x2048 : S64x2048x1.ShapeCasts S64x2048
  bcast_S_S64x2048 : S_.BroadcastsInDim S64x2048 (![] : Fin 0 → Fin S64x2048.rank)
  reducesTo_S64x2048_S_d0_1 : S64x2048.ReducesTo [0, 1] S_
  bcast_S2048x64_S2048x64x1_0_1 : S2048x64.BroadcastsInDim S2048x64x1 (![0, 1] : Fin 2 → Fin S2048x64x1.rank)
  bcast_S2048x64x1_S2048x64x256_0_1_2 : S2048x64x1.BroadcastsInDim S2048x64x256 (![0, 1, 2] : Fin 3 → Fin S2048x64x256.rank)
  reducesTo_S2048x64x32_S2048x64_d2 : S2048x64x32.ReducesTo [2] S2048x64
  transposes_S2048x64_S64x2048_1_0 : S2048x64.Transposes [1, 0] S64x2048
  reducesTo_S64x2048_S64_d1 : S64x2048.ReducesTo [1] S64
  reducesTo_S64_S_d0 : S64.ReducesTo [0] S_
  dot_S2048x64x256_S256x32_S2048x64x32_2_0_01_1_n_n_wf : DotDims.WF S2048x64x256 S256x32 S2048x64x32 [2] [0] [0, 1] [1] [] []
  gather_S64x2048x32_S64x2048x1x1_S64x2048x1_n_2_01_01_2_3_111_wf : GatherDims.WF S64x2048x32 S64x2048x1x1 S64x2048x1 [] [2] [0, 1] [2] [0, 1] 3 ![1, 1, 1]

variable [Facts₀]

def dot_S2048x64x256_S256x32_S2048x64x32_2_0_01_1_n_n : DotDims S2048x64x256 S256x32 S2048x64x32 where
  lhsContracting := [2]
  rhsContracting := [0]
  lhsNonContracting := [0, 1]
  rhsNonContracting := [1]
  lhsBatch := []
  rhsBatch := []
  wf := dot_S2048x64x256_S256x32_S2048x64x32_2_0_01_1_n_n_wf
def gather_S64x2048x32_S64x2048x1x1_S64x2048x1_n_2_01_01_2_3_111 : GatherDims S64x2048x32 S64x2048x1x1 S64x2048x1 where
  offsetDims := []
  collapsedSliceDims := [2]
  operandBatchingDims := [0, 1]
  startIndicesBatchingDims := [0, 1]
  startIndexMap := [2]
  indexVectorDim := 3
  sliceSizes := ![1, 1, 1]
  wf := gather_S64x2048x32_S64x2048x1x1_S64x2048x1_n_2_01_01_2_3_111_wf

class Facts : Prop extends Facts₀ where

variable [Facts]
-- ==== Proof.Intensity.lean ====
/-
  The two arrays both programs compute before the shared masked sums, as functions of the inputs on the extended reals.

  With `W : [256, 32]` and `bias : [32]` the intensity layer sends a hidden vector `x : [256]` to
  `softplus (Σ_h x[h] · W[h, k] + bias[k])` for each of the 32 event types `k`.
    * the log-intensity of step `l`, sequence `b`, type `k` is `log` of that at `x = hidden[l, b, :]`;
    * the simulated intensity sum of step `l`, sequence `b` is the sum over `k` of that at the decayed hidden state
      `x[h] = o[l,b,h] · tanh (c̄[l,b,h] + (c[l,b,h] − c̄[l,b,h]) · exp (−δ[l,b,h] · t[l,b]))`.
  `softplus x = log (1 + eˣ)` is written the overflow-safe way both programs write it,
  `max x 0 + log1p (exp (−|x − 0|))`, behind a guard `x − 0 ≠ x − 0` (a test for a NaN) that chooses `x + 0` instead; on
  the extended reals the guard is never true, and it is kept here as written so that neither side has to evaluate it.
  The zero is the all-zero f32 word, which both programs splat.
-/
import Idealize.ShloMosaic.PureOps.Ideal.Laws
import Idealize.ShloMosaic.Lib.ValueIdx

noncomputable section

open scoped BigOperators

namespace Cert.Intensity

open Idealize.ShloMosaic Idealize.ShloMosaic.ValueIdx

/-- The zero both programs splat: the f32 word of all zero bits, as an extended real. -/
abbrev zeroF : EReal := Ideal.ofBits .f32 0x00000000#32

/-- `log (1 + eˣ)` in the form both programs compute. -/
def softplus (x : EReal) : EReal :=
  Scalar.select (Ideal.cmp .one (x - zeroF) (x - zeroF)) (x + zeroF)
    (max x zeroF + Ideal.log1p (Ideal.exp (-(max (x - zeroF) (-(x - zeroF))))))

/-- The intensity layer before its softplus: `Σ_h x[h] · W[h, k] + bias[k]`. -/
def affine (W : (⟨2, ![256, 32]⟩ : Shape).Idx → EReal) (bias : (⟨1, ![32]⟩ : Shape).Idx → EReal) (x : Fin 256 → EReal)
    (k : Fin 32) : EReal :=
  ∑ h : Fin 256, x h * W (ix2 h k) + bias (ix1 k)

/-- The log-intensity of step `l`, sequence `b`, event type `k`. -/
def logIntensityAt (hid : (⟨3, ![2048, 64, 256]⟩ : Shape).Idx → EReal) (W : (⟨2, ![256, 32]⟩ : Shape).Idx → EReal)
    (bias : (⟨1, ![32]⟩ : Shape).Idx → EReal) (l : Fin 2048) (b : Fin 64) (k : Fin 32) : EReal :=
  Ideal.log (softplus (affine W bias (fun h => hid (ix3 l b h)) k))

/-- The log-intensities as one array `[2048, 64, 32]`. -/
def logIntensity (hid : (⟨3, ![2048, 64, 256]⟩ : Shape).Idx → EReal) (W : (⟨2, ![256, 32]⟩ : Shape).Idx → EReal)
    (bias : (⟨1, ![32]⟩ : Shape).Idx → EReal) : (⟨3, ![2048, 64, 32]⟩ : Shape).Idx → EReal :=
  fun i => logIntensityAt hid W bias (i 0) (i 1) (i 2)

/-- The hidden state decayed to the simulated time: `o · tanh (c̄ + (c − c̄) · exp (−δ · t))` at `(l, b, h)`. -/
def decayedHiddenAt (c cbar δ o : (⟨3, ![2048, 64, 256]⟩ : Shape).Idx → EReal) (t : (⟨2, ![2048, 64]⟩ : Shape).Idx → EReal)
    (l : Fin 2048) (b : Fin 64) (h : Fin 256) : EReal :=
  o (ix3 l b h) * Ideal.tanh (cbar (ix3 l b h) + (c (ix3 l b h) - cbar (ix3 l b h)) * Ideal.exp (-(δ (ix3 l b h)) * t (ix2 l b)))

/-- The simulated intensity of step `l`, sequence `b`, summed over the 32 event types. -/
def simSumAt (c cbar δ o : (⟨3, ![2048, 64, 256]⟩ : Shape).Idx → EReal) (t : (⟨2, ![2048, 64]⟩ : Shape).Idx → EReal)
    (W : (⟨2, ![256, 32]⟩ : Shape).Idx → EReal) (bias : (⟨1, ![32]⟩ : Shape).Idx → EReal) (l : Fin 2048) (b : Fin 64) : EReal :=
  ∑ k : Fin 32, softplus (affine W bias (fun h => decayedHiddenAt c cbar δ o t l b h) k)

/-- The simulated intensity sums as one array `[2048, 64]`. -/
def simSum (c cbar δ o : (⟨3, ![2048, 64, 256]⟩ : Shape).Idx → EReal) (t : (⟨2, ![2048, 64]⟩ : Shape).Idx → EReal)
    (W : (⟨2, ![256, 32]⟩ : Shape).Idx → EReal) (bias : (⟨1, ![32]⟩ : Shape).Idx → EReal) :
    (⟨2, ![2048, 64]⟩ : Shape).Idx → EReal :=
  fun i => simSumAt c cbar δ o t W bias (i 0) (i 1)

theorem logIntensity_ix3 (hid : (⟨3, ![2048, 64, 256]⟩ : Shape).Idx → EReal) (W : (⟨2, ![256, 32]⟩ : Shape).Idx → EReal)
    (bias : (⟨1, ![32]⟩ : Shape).Idx → EReal) (l : Fin 2048) (b : Fin 64) (k : Fin 32) :
    logIntensity hid W bias (ix3 l b k) = logIntensityAt hid W bias l b k := rfl

theorem simSum_ix2 (c cbar δ o : (⟨3, ![2048, 64, 256]⟩ : Shape).Idx → EReal) (t : (⟨2, ![2048, 64]⟩ : Shape).Idx → EReal)
    (W : (⟨2, ![256, 32]⟩ : Shape).Idx → EReal) (bias : (⟨1, ![32]⟩ : Shape).Idx → EReal) (l : Fin 2048) (b : Fin 64) :
    simSum c cbar δ o t W bias (ix2 l b) = simSumAt c cbar δ o t W bias l b := rfl

/-- On the extended reals subtracting from the splatted zero is negation. -/
theorem zeroF_sub (y : EReal) : zeroF - y = -y := by
  show Ideal.ofBits .f32 0x00000000#32 - y = -y
  rw [Ideal.ofBits_zero_f32, sub_eq_add_neg, zero_add]

end Cert.Intensity

end
-- ==== Proof.LibLeadingAxes.lean ====
/-
  Layout operations that merge or split the two leading axes of an array, read at an index, for any extents.

  A kernel that treats a block `[a, b, c]` as a matrix of `a * b` rows casts it to `[a * b, c]`; row-major order
  keeps every element in place, so row `p * b + q` of the matrix is the pair `(p, q)` of the block. The same holds in
  the other direction (`[a * b, c] → [a, b, c]`) and for a vector split in two (`[a * b] → [a, b]`). Two more
  operations spell `x[..., None]` spread along a new last axis: a cast `[a, b] → [a, b, 1]` and a broadcast
  `[a, b, 1] → [a, b, c]`; read at `(p, q, e)` both give the operand at `(p, q)`. The row count is a parameter `n`
  with the row's position `r = p * b + q` as a hypothesis, so the lemmas apply to literal extents without
  arithmetic in the types.
-/
import Idealize.ShloMosaic.Lib.ValueLayout

noncomputable section

namespace Cert.LibLeadingAxes

open Idealize.ShloMosaic Idealize.ShloMosaic.ValueIdx

variable {α : Type}

/-- A block `[a, b, c]` cast to `[n, c]` reads, at row `r = p * b + q` and column `e`, the block at `(p, q, e)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (e : Fin c) (r : Fin n)
    (hr : r.val = p.val * b + q.val) : shapeCast ⟨2, ![n, c]⟩ x h (ix2 r e) = x (ix3 p q e) :=
  shapeCast_apply x h _ _ (by
    rw [Shape.rowMajor_val_three, Shape.rowMajor_val_two]
    show (p.val * b + q.val) * c + e.val = r.val * c + e.val
    rw [hr])

/-- A matrix `[n, c]` cast to `[a, b, c]` reads, at `(p, q, e)`, the matrix at row `r = p * b + q` and column `e`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (e : Fin c) (r : Fin n)
    (hr : r.val = p.val * b + q.val) : shapeCast ⟨3, ![a, b, c]⟩ x h (ix3 p q e) = x (ix2 r e) :=
  shapeCast_apply x h _ _ (by
    rw [Shape.rowMajor_val_three, Shape.rowMajor_val_two]
    show r.val * c + e.val = (p.val * b + q.val) * c + e.val
    rw [hr])

/-- A vector `[n]` cast to `[a, b]` reads, at `(p, q)`, the vector at position `r = p * b + q`. -/
theorem shapeCast_n_ab_apply {a b n : ℕ} (x : (⟨1, ![n]⟩ : Shape).Idx → α)
    (h : (⟨1, ![n]⟩ : Shape).ShapeCasts ⟨2, ![a, b]⟩) (p : Fin a) (q : Fin b) (r : Fin n)
    (hr : r.val = p.val * b + q.val) : shapeCast ⟨2, ![a, b]⟩ x h (ix2 p q) = x (ix1 r) :=
  shapeCast_apply x h _ _ (by
    rw [Shape.rowMajor_val_two, Shape.rowMajor_val_one]
    show r.val = p.val * b + q.val
    exact hr)

/-- A matrix `[a, b]` cast to `[a, b, 1]` reads, at `(p, q, u)`, the matrix at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An array `[a, b, 1]` broadcast to `[a, b, c]` reads, at `(p, q, e)`, its one entry of the pair `(p, q)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (e : Fin c) :
    broadcastTo ⟨3, ![a, b, c]⟩ v h (ix3 p q e) = v (ix3 p q (0 : Fin 1)) := by
  refine broadcastTo_apply v h (ix3 p q e) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if (1 : ℕ) = 1 then 0 else e.val
    rw [if_pos rfl]

end Cert.LibLeadingAxes

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.BlockValue.lean ====
/-
  What one grid point's body leaves in its two output blocks, entry by entry, on the extended reals.

  The body sees 16 time steps at once. It reads a block `[16, 64, 256]` as a matrix of 1024 rows (row `p * 64 + q` is
  step `p`, sequence `q`), multiplies by `W`, adds the bias along every row and applies softplus entry by entry; a
  change of float format is the identity here, and the product accumulated into the zero matrix is the plain sum
  `Σ_h x[p, q, h] · W[h, e]`. The first output block is the logarithm of that for the hidden states; the second is
  its sum over the 32 event types for the hidden states decayed to the simulated times.
-/
import proofs.«117084_j9569187136166_1_alg».proof.Proof.Gen.KernelIdeal.Skeleton
import proofs.«117084_j9569187136166_1_alg».proof.Proof.Intensity
import proofs.«117084_j9569187136166_1_alg».proof.Proof.LibLeadingAxes
import proofs.«117084_j9569187136166_1_alg».proof.Proof.LibPlainMatmul
import proofs.«117084_j9569187136166_1_alg».proof.Proof.LibKeepdims
import Idealize.ShloMosaic.Lib.ValueLayout

noncomputable section

open scoped BigOperators

namespace Cert.KernelIdeal.BlockValue

open Cert.KernelIdeal Cert.KernelIdeal.Gen Idealize.ShloMosaic Idealize.ShloMosaic.ValueIdx
open Cert.Intensity Cert.LibLeadingAxes Cert.LibKeepdims

/-- The affine map of every row of a block: the block as a 1024-row matrix times `W` (in its narrower format, the same
    numbers here), plus the bias spread along the rows. -/
def preAct (x : FVec Ideal S16x64x256 .f32) (wb : FVec Ideal S256x32 .bf16) (bias : FVec Ideal S32 .f32) :
    FVec Ideal S1024x32 .f32 :=
  addf (matmul dot_S1024x256_S256x32_S1024x32_1_0_0_1_n_n none
          (truncf .bf16 (shapeCast S1024x256 x shapeCasts_S16x64x256_S1024x256) bitsLt_bf16_f32) wb
          (constant S1024x32 .f32 0x00000000#32))
       (broadcastTo S1024x32 (shapeCast S1x32 bias shapeCasts_S32_S1x32) broadcasts_S1x32_S1024x32)

/-- softplus of every entry of a matrix, in the operations the body spells it with. -/
def softplusMat (v : FVec Ideal S1024x32 .f32) : FVec Ideal S1024x32 .f32 :=
  select (cmpf .one (subf v (broadcast S1024x32 (Scalar.ofBits .f32 0x00000000#32))) (subf v (broadcast S1024x32 (Scalar.ofBits .f32 0x00000000#32))))
    (addf v (broadcast S1024x32 (Scalar.ofBits .f32 0x00000000#32)))
    (addf (maximumf v (broadcast S1024x32 (Scalar.ofBits .f32 0x00000000#32)))
      (log1p (exp (subf (broadcast S1024x32 (Scalar.ofBits .f32 0x00000000#32))
        (absf (subf v (broadcast S1024x32 (Scalar.ofBits .f32 0x00000000#32))))))))

/-- Entry by entry it is the specification's softplus, but for `0 − |d|` where that has `−|d|`. -/
theorem softplusMat_apply (v : FVec Ideal S1024x32 .f32) (i : S1024x32.Idx) : softplusMat v i = softplus (v i) := by
  show Scalar.select (Ideal.cmp .one (v i - zeroF) (v i - zeroF)) (v i + zeroF)
      (max (v i) zeroF + Ideal.log1p (Ideal.exp (zeroF - max (v i - zeroF) (-(v i - zeroF))))) = softplus (v i)
  rw [zeroF_sub]
  rfl

/-- Row `r = p * 64 + q` of the block read as a matrix, times `W`, plus the bias, at column `e`: the intensity layer's
    affine map of the hidden vector `x[p, q, :]`. -/
theorem preAct_apply (x : FVec Ideal S16x64x256 .f32) (w : FVec Ideal S256x32 .f32) (bias : FVec Ideal S32 .f32)
    (p : Fin 16) (q : Fin 64) (e : Fin 32) (r : Fin 1024) (hr : r.val = p.val * 64 + q.val) :
    preAct x (k0_pay2 w) bias (ix2 r e) = affine w bias (fun h => x (ix3 p q h)) e := by
  show FloatOps.matmul dot_S1024x256_S256x32_S1024x32_1_0_0_1_n_n none
          (truncf .bf16 (shapeCast S1024x256 x shapeCasts_S16x64x256_S1024x256) bitsLt_bf16_f32) (k0_pay2 w)
          (constant ⟨2, ![1024, 32]⟩ .f32 0x00000000#32) (ix2 r e)
        + broadcastTo ⟨2, ![1024, 32]⟩ (shapeCast ⟨2, ![1, 32]⟩ bias shapeCasts_S32_S1x32) broadcasts_S1x32_S1024x32 (ix2 r e) = _
  rw [matmul_plain_zero_apply dot_S1024x256_S256x32_S1024x32_1_0_0_1_n_n rfl, broadcastTo_1b_ab_apply, shapeCast_a_1a_apply]
  unfold affine
  refine congrArg (· + bias (ix1 e)) (Finset.sum_congr rfl fun k _ => ?_)
  show shapeCast ⟨2, ![1024, 256]⟩ x shapeCasts_S16x64x256_S1024x256 (ix2 r k) * w (ix2 k e) = x (ix3 p q k) * w (ix2 k e)
  rw [shapeCast_abc_nc_apply x shapeCasts_S16x64x256_S1024x256 p q k r hr]

/-- The first output block's stored value is the logarithm of the softplus of the affine map of the hidden block, the
    1024 rows split back into 16 steps of 64 sequences. -/
theorem logIntensity_payload (w : FVec Ideal S256x32 .f32) (bias : FVec Ideal S32 .f32) (x : FVec Ideal S16x64x256 .f32) :
    k0_pay3 (F := Ideal) w bias x
      = shapeCast S16x64x32 (log (softplusMat (preAct x (k0_pay2 w) bias))) shapeCasts_S1024x32_S16x64x32 := rfl

/-- One entry of the log-intensity block: `log (softplus (Σ_h x[p, q, h] · W[h, e] + bias[e]))`. -/
theorem logIntensity_entry (w : FVec Ideal S256x32 .f32) (bias : FVec Ideal S32 .f32) (x : FVec Ideal S16x64x256 .f32)
    (p : Fin 16) (q : Fin 64) (e : Fin 32) (r : Fin 1024) (hr : r.val = p.val * 64 + q.val) :
    k0_pay3 (F := Ideal) w bias x (ix3 p q e) = Ideal.log (softplus (affine w bias (fun h => x (ix3 p q h)) e)) := by
  rw [logIntensity_payload,
    shapeCast_nc_abc_apply (log (softplusMat (preAct x (k0_pay2 w) bias))) shapeCasts_S1024x32_S16x64x32 p q e r hr]
  show Ideal.log (softplusMat (preAct x (k0_pay2 w) bias) (ix2 r e)) = _
  rw [softplusMat_apply, preAct_apply x w bias p q e r hr]

/-- The hidden state decayed to the simulated time, as the body computes it on a block:
    `o · tanh (c̄ + (c − c̄) · exp ((0 − δ) · t[..., None]))`. -/
def decayedBlock (c cbar δ o : FVec Ideal S16x64x256 .f32) (t : FVec Ideal S16x64 .f32) : FVec Ideal S16x64x256 .f32 :=
  mulf o (tanh (addf cbar (mulf (subf c cbar) (exp (mulf (subf (broadcast S16x64x256 (Scalar.ofBits .f32 0x00000000#32)) δ)
    (broadcastTo S16x64x256 (shapeCast S16x64x1 t shapeCasts_S16x64_S16x64x1) broadcasts_S16x64x1_S16x64x256))))))

/-- Its entry `(p, q, h)`: the time `t[p, q]` is the same for all 256 hidden units, and `0 − δ` is `−δ`. -/
theorem decayedBlock_apply (c cbar δ o : FVec Ideal S16x64x256 .f32) (t : FVec Ideal S16x64 .f32)
    (p : Fin 16) (q : Fin 64) (h : Fin 256) :
    decayedBlock c cbar δ o t (ix3 p q h)
      = o (ix3 p q h) * Ideal.tanh (cbar (ix3 p q h) + (c (ix3 p q h) - cbar (ix3 p q h)) * Ideal.exp (-(δ (ix3 p q h)) * t (ix2 p q))) := by
  show o (ix3 p q h) * Ideal.tanh (cbar (ix3 p q h) + (c (ix3 p q h) - cbar (ix3 p q h))
      * Ideal.exp ((zeroF - δ (ix3 p q h))
        * broadcastTo ⟨3, ![16, 64, 256]⟩ (shapeCast ⟨3, ![16, 64, 1]⟩ t shapeCasts_S16x64_S16x64x1) broadcasts_S16x64x1_S16x64x256 (ix3 p q h))) = _
  rw [zeroF_sub, broadcastTo_ab1_abc_apply, shapeCast_ab_ab1_apply]

/-- The second output block's stored value: the row sums of the softplus of the affine map of the decayed hidden block,
    the 1024 sums split back into 16 × 64. -/
theorem simSum_payload (wb : FVec Ideal S256x32 .bf16) (bias : FVec Ideal S32 .f32) (c cbar δ o : FVec Ideal S16x64x256 .f32)
    (t : FVec Ideal S16x64 .f32) :
    k0_pay1 (F := Ideal) wb bias c cbar δ o t
      = shapeCast S16x64 (multiReduction .add [1] S1024 (softplusMat (preAct (decayedBlock c cbar δ o t) wb bias))
          0x00000000#32 reduces_S1024x32_S1024 (.inl rfl) rfl) shapeCasts_S1024_S16x64 := rfl

/-- One entry of the simulated-intensity block: the sum over the 32 event types of the softplus of the affine map of the
    decayed hidden vector of step `p`, sequence `q`. -/
theorem simSum_entry (w : FVec Ideal S256x32 .f32) (bias : FVec Ideal S32 .f32) (c cbar δ o : FVec Ideal S16x64x256 .f32)
    (t : FVec Ideal S16x64 .f32) (p : Fin 16) (q : Fin 64) (r : Fin 1024) (hr : r.val = p.val * 64 + q.val) :
    k0_pay1 (F := Ideal) (k0_pay2 w) bias c cbar δ o t (ix2 p q)
      = ∑ e : Fin 32, softplus (affine w bias (fun h => o (ix3 p q h) * Ideal.tanh (cbar (ix3 p q h)
          + (c (ix3 p q h) - cbar (ix3 p q h)) * Ideal.exp (-(δ (ix3 p q h)) * t (ix2 p q)))) e) := by
  rw [simSum_payload,
    shapeCast_n_ab_apply (multiReduction .add [1] S1024 (softplusMat (preAct (decayedBlock c cbar δ o t) (k0_pay2 w) bias))
      0x00000000#32 reduces_S1024x32_S1024 (.inl rfl) rfl) shapeCasts_S1024_S16x64 p q r hr]
  refine (multiReduction_add_lastAxis_apply (softplusMat (preAct (decayedBlock c cbar δ o t) (k0_pay2 w) bias))
    0x00000000#32 reduces_S1024x32_S1024 (.inl rfl) rfl r).trans ?_
  refine Finset.sum_congr rfl fun e _ => ?_
  rw [softplusMat_apply, preAct_apply (decayedBlock c cbar δ o t) w bias p q e r hr]
  exact congrArg (fun f => softplus (affine w bias f e)) (funext fun h => decayedBlock_apply c cbar δ o t p q h)

end Cert.KernelIdeal.BlockValue

end
-- ==== Proof.PointValue.lean ====
/-
  One grid point's output blocks as blocks of the whole arrays.

  Grid point `tv` works on time steps `16 · tv … 16 · tv + 15`: entry `(p, q, ·)` of each of its input blocks is entry
  `(16 · tv + p, q, ·)` of the input array, while `W` and the bias are read whole. So entry `(p, q, e)` of its first output
  block is the log-intensity of step `16 · tv + p`, sequence `q`, event type `e`, and entry `(p, q)` of its second the
  simulated intensity sum of that step and sequence: both output blocks are the blocks, at the same place, of the two
  arrays of the specification. The relation between a block and its array is a hypothesis here, stated by coordinates.
-/
import proofs.«117084_j9569187136166_1_alg».proof.Proof.BlockValue

noncomputable section

open scoped BigOperators

namespace Cert.KernelIdeal.PointValue

open Cert.KernelIdeal Cert.KernelIdeal.Gen Cert.KernelIdeal.BlockValue Idealize.ShloMosaic Idealize.ShloMosaic.ValueIdx
open Cert.Intensity

/-- The first output block at grid point `tv` is that block of the log-intensity array. -/
theorem logIntensity_point (tv : Nat) (x0 : FVec Ideal S16x64x256 .f32) (x6 : FVec Ideal S256x32 .f32) (x7 : FVec Ideal S32 .f32)
    (A3 : FVec Ideal S2048x64x256 .f32) (A9 : FVec Ideal S256x32 .f32) (A10 : FVec Ideal S32 .f32)
    (hx0 : ∀ (yy : S16x64x256.Idx) (ii : S2048x64x256.Idx), (ii 0).val = tv * 16 + (yy 0).val → (ii 1).val = (yy 1).val → (ii 2).val = (yy 2).val → x0 yy = A3 ii)
    (hw : ∀ yy : S256x32.Idx, x6 yy = A9 yy) (hb : ∀ yy : S32.Idx, x7 yy = A10 yy)
    (y : S16x64x32.Idx) (i : S2048x64x32.Idx)
    (h0 : (i 0).val = tv * 16 + (y 0).val) (h1 : (i 1).val = (y 1).val) (h2 : (i 2).val = (y 2).val) :
    k0_pay3 (F := Ideal) x6 x7 x0 y = logIntensity A3 A9 A10 i := by
  obtain rfl : x6 = A9 := funext hw
  obtain rfl : x7 = A10 := funext hb
  obtain ⟨p, q, e, rfl⟩ : ∃ (p : Fin 16) (q : Fin 64) (e : Fin 32), y = ix3 p q e := ⟨y 0, y 1, y 2, eq_ix3 y⟩
  obtain ⟨l, b, k, rfl⟩ : ∃ (l : Fin 2048) (b : Fin 64) (k : Fin 32), i = ix3 l b k := ⟨i 0, i 1, i 2, eq_ix3 i⟩
  obtain rfl : b = q := Fin.ext h1
  obtain rfl : k = e := Fin.ext h2
  have hp := p.isLt
  have hq := b.isLt
  rw [logIntensity_entry x6 x7 x0 p b k ⟨p.val * 64 + b.val, by omega⟩ rfl, logIntensity_ix3]
  unfold logIntensityAt
  exact congrArg (fun f => Ideal.log (softplus (affine x6 x7 f k))) (funext fun h => hx0 (ix3 p b h) (ix3 l b h) h0 rfl rfl)

/-- The second output block at grid point `tv` is that block of the simulated-intensity-sum array. -/
theorem simSum_point (tv : Nat) (x1 x2 x4 x3 : FVec Ideal S16x64x256 .f32) (x5 : FVec Ideal S16x64 .f32)
    (x6 : FVec Ideal S256x32 .f32) (x7 : FVec Ideal S32 .f32)
    (A4 A5 A7 A6 : FVec Ideal S2048x64x256 .f32) (A8 : FVec Ideal S2048x64 .f32)
    (A9 : FVec Ideal S256x32 .f32) (A10 : FVec Ideal S32 .f32)
    (hx1 : ∀ (yy : S16x64x256.Idx) (ii : S2048x64x256.Idx), (ii 0).val = tv * 16 + (yy 0).val → (ii 1).val = (yy 1).val → (ii 2).val = (yy 2).val → x1 yy = A4 ii)
    (hx2 : ∀ (yy : S16x64x256.Idx) (ii : S2048x64x256.Idx), (ii 0).val = tv * 16 + (yy 0).val → (ii 1).val = (yy 1).val → (ii 2).val = (yy 2).val → x2 yy = A5 ii)
    (hx4 : ∀ (yy : S16x64x256.Idx) (ii : S2048x64x256.Idx), (ii 0).val = tv * 16 + (yy 0).val → (ii 1).val = (yy 1).val → (ii 2).val = (yy 2).val → x4 yy = A7 ii)
    (hx3 : ∀ (yy : S16x64x256.Idx) (ii : S2048x64x256.Idx), (ii 0).val = tv * 16 + (yy 0).val → (ii 1).val = (yy 1).val → (ii 2).val = (yy 2).val → x3 yy = A6 ii)
    (hx5 : ∀ (yy : S16x64.Idx) (ii : S2048x64.Idx), (ii 0).val = tv * 16 + (yy 0).val → (ii 1).val = (yy 1).val → x5 yy = A8 ii)
    (hw : ∀ yy : S256x32.Idx, x6 yy = A9 yy) (hb : ∀ yy : S32.Idx, x7 yy = A10 yy)
    (y : S16x64.Idx) (i : S2048x64.Idx) (h0 : (i 0).val = tv * 16 + (y 0).val) (h1 : (i 1).val = (y 1).val) :
    k0_pay1 (F := Ideal) (k0_pay2 x6) x7 x1 x2 x4 x3 x5 y = simSum A4 A5 A7 A6 A8 A9 A10 i := by
  obtain rfl : x6 = A9 := funext hw
  obtain rfl : x7 = A10 := funext hb
  obtain ⟨p, q, rfl⟩ : ∃ (p : Fin 16) (q : Fin 64), y = ix2 p q := ⟨y 0, y 1, eq_ix2 y⟩
  obtain ⟨l, b, rfl⟩ : ∃ (l : Fin 2048) (b : Fin 64), i = ix2 l b := ⟨i 0, i 1, eq_ix2 i⟩
  obtain rfl : b = q := Fin.ext h1
  have hp := p.isLt
  have hq := b.isLt
  rw [simSum_entry x6 x7 x1 x2 x4 x3 x5 p b ⟨p.val * 64 + b.val, by omega⟩ rfl, simSum_ix2]
  unfold simSumAt decayedHiddenAt
  refine Finset.sum_congr rfl fun e _ => congrArg (fun f => softplus (affine x6 x7 f e)) (funext fun h => ?_)
  rw [hx1 (ix3 p b h) (ix3 l b h) h0 rfl rfl, hx2 (ix3 p b h) (ix3 l b h) h0 rfl rfl, hx4 (ix3 p b h) (ix3 l b h) h0 rfl rfl,
    hx3 (ix3 p b h) (ix3 l b h) h0 rfl rfl, hx5 (ix2 p b) (ix2 l b) h0 rfl]

end Cert.KernelIdeal.PointValue

end
-- ==== Proof.KernelArrays.lean ====
/-
  The two arrays the kernel's region leaves, as whole-array functions of the inputs.

  The grid has 128 points; point `t` fetches rows `16 t … 16 t + 15` of the five `[2048, 64, 256]` inputs and of the
  `[2048, 64]` times, sees `W` and the bias whole, and writes back rows `16 t … 16 t + 15` of both outputs. What it
  writes back is the block, at that place, of the specification's arrays of the inputs as the region finds them, and
  the 128 blocks tile each output (row `r` is in the block of point `r / 16`): so after the region each output array
  IS the specification's array.
-/
import proofs.«117084_j9569187136166_1_alg».proof.Proof.Gen.KernelIdeal.Frame
import proofs.«117084_j9569187136166_1_alg».proof.Proof.PointValue
import Idealize.ShloMosaic.Lib.Pipeline.Value

set_option maxRecDepth 16384

noncomputable section

namespace Cert.KernelIdeal.Arrays

open Cert.KernelIdeal Cert.KernelIdeal.Gen Cert.KernelIdeal.PointValue Idealize.ShloMosaic Idealize.ShloMosaic.TcCoe
open Idealize.ShloMosaic.ValueIdx Idealize.SL.Sem Cert.Intensity
open Idealize.ShloMosaic.Pipeline (Dat Cfg Window)

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The printed index maps, decided over the grid -/

theorem index_rows0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index_rows1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index_rows2 : ∀ t : Fin cfg0.N, win0_2.index t (0 : Fin 3) = t.val ∧ win0_2.index t (1 : Fin 3) = 0 ∧ win0_2.index t (2 : Fin 3) = 0 :=
  (by decide +kernel : ∀ t : Fin grid0.N, _)
theorem index_rows3 : ∀ t : Fin cfg0.N, win0_3.index t (0 : Fin 3) = t.val ∧ win0_3.index t (1 : Fin 3) = 0 ∧ win0_3.index t (2 : Fin 3) = 0 :=
  (by decide +kernel : ∀ t : Fin grid0.N, _)
theorem index_rows4 : ∀ t : Fin cfg0.N, win0_4.index t (0 : Fin 3) = t.val ∧ win0_4.index t (1 : Fin 3) = 0 ∧ win0_4.index t (2 : Fin 3) = 0 :=
  (by decide +kernel : ∀ t : Fin grid0.N, _)
theorem index_times : ∀ t : Fin cfg0.N, win0_5.index t (0 : Fin 2) = t.val ∧ win0_5.index t (1 : Fin 2) = 0 :=
  (by decide +kernel : ∀ t : Fin grid0.N, _)
theorem index_weights : ∀ t : Fin cfg0.N, win0_6.index t (0 : Fin 2) = 0 ∧ win0_6.index t (1 : Fin 2) = 0 :=
  (by decide +kernel : ∀ t : Fin grid0.N, _)
theorem index_bias : ∀ t : Fin cfg0.N, win0_7.index t (0 : Fin 1) = 0 :=
  (by decide +kernel : ∀ t : Fin grid0.N, _)
theorem index_out8 : ∀ t : Fin cfg0.N, win0_8.index t (0 : Fin 3) = t.val ∧ win0_8.index t (1 : Fin 3) = 0 ∧ win0_8.index t (2 : Fin 3) = 0 :=
  (by decide +kernel : ∀ t : Fin grid0.N, _)
theorem index_out9 : ∀ t : Fin cfg0.N, win0_9.index t (0 : Fin 2) = t.val ∧ win0_9.index t (1 : Fin 2) = 0 :=
  (by decide +kernel : ∀ t : Fin grid0.N, _)

/-! ## Each input window's block, by coordinates -/

/-- Window 0's block at point `t`: entry `(p, q, h)` is the array's entry `(16 t + p, q, h)`. -/
theorem iblk0_read (c : Dev nD) (t : Fin cfg0.N) (yy : S16x64x256.Idx) (ii : S2048x64x256.Idx)
    (h0 : (ii 0).val = t.val * 16 + (yy 0).val) (h1 : (ii 1).val = (yy 1).val) (h2 : (ii 2).val = (yy 2).val) :
    iblk m c 0 t yy = V m c main_arg3 ii := by
  obtain ⟨e0, e1, e2⟩ := index_rows0 t
  show V m c main_arg3 (((cfg0.win 0).blk t).view.emb yy) = V m c main_arg3 ii
  have he : ((cfg0.win 0).blk t).view.emb yy = ii := by
    funext a; apply Fin.ext
    match a with
    | ⟨0, _⟩ => show win0_0.index t (0 : Fin 3) * 16 + 1 * (yy 0).val = (ii 0).val; omega
    | ⟨1, _⟩ => show win0_0.index t (1 : Fin 3) * 64 + 1 * (yy 1).val = (ii 1).val; omega
    | ⟨2, _⟩ => show win0_0.index t (2 : Fin 3) * 256 + 1 * (yy 2).val = (ii 2).val; omega
  rw [he]

/-- Window 1's block at point `t`: entry `(p, q, h)` is the array's entry `(16 t + p, q, h)`. -/
theorem iblk1_read (c : Dev nD) (t : Fin cfg0.N) (yy : S16x64x256.Idx) (ii : S2048x64x256.Idx)
    (h0 : (ii 0).val = t.val * 16 + (yy 0).val) (h1 : (ii 1).val = (yy 1).val) (h2 : (ii 2).val = (yy 2).val) :
    iblk m c 1 t yy = V m c main_arg4 ii := by
  obtain ⟨e0, e1, e2⟩ := index_rows1 t
  show V m c main_arg4 (((cfg0.win 1).blk t).view.emb yy) = V m c main_arg4 ii
  have he : ((cfg0.win 1).blk t).view.emb yy = ii := by
    funext a; apply Fin.ext
    match a with
    | ⟨0, _⟩ => show win0_1.index t (0 : Fin 3) * 16 + 1 * (yy 0).val = (ii 0).val; omega
    | ⟨1, _⟩ => show win0_1.index t (1 : Fin 3) * 64 + 1 * (yy 1).val = (ii 1).val; omega
    | ⟨2, _⟩ => show win0_1.index t (2 : Fin 3) * 256 + 1 * (yy 2).val = (ii 2).val; omega
  rw [he]

/-- Window 2's block at point `t`: entry `(p, q, h)` is the array's entry `(16 t + p, q, h)`. -/
theorem iblk2_read (c : Dev nD) (t : Fin cfg0.N) (yy : S16x64x256.Idx) (ii : S2048x64x256.Idx)
    (h0 : (ii 0).val = t.val * 16 + (yy 0).val) (h1 : (ii 1).val = (yy 1).val) (h2 : (ii 2).val = (yy 2).val) :
    iblk m c 2 t yy = V m c main_arg5 ii := by
  obtain ⟨e0, e1, e2⟩ := index_rows2 t
  show V m c main_arg5 (((cfg0.win 2).blk t).view.emb yy) = V m c main_arg5 ii
  have he : ((cfg0.win 2).blk t).view.emb yy = ii := by
    funext a; apply Fin.ext
    match a with
    | ⟨0, _⟩ => show win0_2.index t (0 : Fin 3) * 16 + 1 * (yy 0).val = (ii 0).val; omega
    | ⟨1, _⟩ => show win0_2.index t (1 : Fin 3) * 64 + 1 * (yy 1).val = (ii 1).val; omega
    | ⟨2, _⟩ => show win0_2.index t (2 : Fin 3) * 256 + 1 * (yy 2).val = (ii 2).val; omega
  rw [he]

/-- Window 3's block at point `t`: entry `(p, q, h)` is the array's entry `(16 t + p, q, h)`. -/
theorem iblk3_read (c : Dev nD) (t : Fin cfg0.N) (yy : S16x64x256.Idx) (ii : S2048x64x256.Idx)
    (h0 : (ii 0).val = t.val * 16 + (yy 0).val) (h1 : (ii 1).val = (yy 1).val) (h2 : (ii 2).val = (yy 2).val) :
    iblk m c 3 t yy = V m c main_arg6 ii := by
  obtain ⟨e0, e1, e2⟩ := index_rows3 t
  show V m c main_arg6 (((cfg0.win 3).blk t).view.emb yy) = V m c main_arg6 ii
  have he : ((cfg0.win 3).blk t).view.emb yy = ii := by
    funext a; apply Fin.ext
    match a with
    | ⟨0, _⟩ => show win0_3.index t (0 : Fin 3) * 16 + 1 * (yy 0).val = (ii 0).val; omega
    | ⟨1, _⟩ => show win0_3.index t (1 : Fin 3) * 64 + 1 * (yy 1).val = (ii 1).val; omega
    | ⟨2, _⟩ => show win0_3.index t (2 : Fin 3) * 256 + 1 * (yy 2).val = (ii 2).val; omega
  rw [he]

/-- Window 4's block at point `t`: entry `(p, q, h)` is the array's entry `(16 t + p, q, h)`. -/
theorem iblk4_read (c : Dev nD) (t : Fin cfg0.N) (yy : S16x64x256.Idx) (ii : S2048x64x256.Idx)
    (h0 : (ii 0).val = t.val * 16 + (yy 0).val) (h1 : (ii 1).val = (yy 1).val) (h2 : (ii 2).val = (yy 2).val) :
    iblk m c 4 t yy = V m c main_arg7 ii := by
  obtain ⟨e0, e1, e2⟩ := index_rows4 t
  show V m c main_arg7 (((cfg0.win 4).blk t).view.emb yy) = V m c main_arg7 ii
  have he : ((cfg0.win 4).blk t).view.emb yy = ii := by
    funext a; apply Fin.ext
    match a with
    | ⟨0, _⟩ => show win0_4.index t (0 : Fin 3) * 16 + 1 * (yy 0).val = (ii 0).val; omega
    | ⟨1, _⟩ => show win0_4.index t (1 : Fin 3) * 64 + 1 * (yy 1).val = (ii 1).val; omega
    | ⟨2, _⟩ => show win0_4.index t (2 : Fin 3) * 256 + 1 * (yy 2).val = (ii 2).val; omega
  rw [he]

/-- The times' block at point `t`: entry `(p, q)` is the array's entry `(16 t + p, q)`. -/
theorem iblk5_read (c : Dev nD) (t : Fin cfg0.N) (yy : S16x64.Idx) (ii : S2048x64.Idx)
    (h0 : (ii 0).val = t.val * 16 + (yy 0).val) (h1 : (ii 1).val = (yy 1).val) :
    iblk m c 5 t yy = V m c main_arg8 ii := by
  obtain ⟨e0, e1⟩ := index_times t
  show V m c main_arg8 (((cfg0.win 5).blk t).view.emb yy) = V m c main_arg8 ii
  have he : ((cfg0.win 5).blk t).view.emb yy = ii := by
    funext a; apply Fin.ext
    match a with
    | ⟨0, _⟩ => show win0_5.index t (0 : Fin 2) * 16 + 1 * (yy 0).val = (ii 0).val; omega
    | ⟨1, _⟩ => show win0_5.index t (1 : Fin 2) * 64 + 1 * (yy 1).val = (ii 1).val; omega
  rw [he]

/-- `W` is seen whole at every point. -/
theorem iblk6_read (c : Dev nD) (t : Fin cfg0.N) (yy : S256x32.Idx) : iblk m c 6 t yy = V m c main_arg9 yy := by
  obtain ⟨e0, e1⟩ := index_weights t
  show V m c main_arg9 (((cfg0.win 6).blk t).view.emb yy) = V m c main_arg9 yy
  have he : ((cfg0.win 6).blk t).view.emb yy = yy := by
    funext a; apply Fin.ext
    match a with
    | ⟨0, _⟩ => show win0_6.index t (0 : Fin 2) * 256 + 1 * (yy 0).val = (yy 0).val; omega
    | ⟨1, _⟩ => show win0_6.index t (1 : Fin 2) * 32 + 1 * (yy 1).val = (yy 1).val; omega
  rw [he]

/-- The bias is seen whole at every point. -/
theorem iblk7_read (c : Dev nD) (t : Fin cfg0.N) (yy : S32.Idx) : iblk m c 7 t yy = V m c main_arg10 yy := by
  have e0 := index_bias t
  show V m c main_arg10 (((cfg0.win 7).blk t).view.emb yy) = V m c main_arg10 yy
  have he : ((cfg0.win 7).blk t).view.emb yy = yy := by
    funext a; apply Fin.ext
    match a with
    | ⟨0, _⟩ => show win0_7.index t (0 : Fin 1) * 32 + 1 * (yy 0).val = (yy 0).val; omega
  rw [he]

/-! ## The log-intensity output -/

/-- What point `t` writes back is block `t` of the log-intensity array of the inputs as the region finds them. -/
theorem flushed8_eq (c : Dev nD) (t : Fin cfg0.N) :
    (dats m 0 c).flushed 8 t = ((cfg0.win 8).blk t).view.read (Elt Ideal)
      (logIntensity (V m c main_arg3) (V m c main_arg9) (V m c main_arg10)) := by
  show (cfg0.win 8).cut (grid0.coords t) ((dats m 0 c).after 8 t) = _
  rw [after0_8]
  unfold out0_8
  rw [View.canon_unit_zero hz3]
  simp only [View.ld_unit_zero (S := S256x32) hz2, View.ld_unit_zero (S := S32) hz1, View.ld_unit_zero (S := S16x64x256) hz3]
  obtain ⟨e0, e1, e2⟩ := index_out8 t
  funext j
  show k0_pay3 (F := Ideal) (iblk m c 6 t) (iblk m c 7 t) (iblk m c 0 t) j
    = logIntensity (V m c main_arg3) (V m c main_arg9) (V m c main_arg10) (((cfg0.win 8).blk t).view.emb j)
  refine logIntensity_point t.val (iblk m c 0 t) (iblk m c 6 t) (iblk m c 7 t) (V m c main_arg3) (V m c main_arg9) (V m c main_arg10)
    (iblk0_read m c t) (iblk6_read m c t) (iblk7_read m c t) j (((cfg0.win 8).blk t).view.emb j) ?_ ?_ ?_
  · show win0_8.index t (0 : Fin 3) * 16 + 1 * (j 0).val = t.val * 16 + (j 0).val; omega
  · show win0_8.index t (1 : Fin 3) * 64 + 1 * (j 1).val = (j 1).val; omega
  · show win0_8.index t (2 : Fin 3) * 32 + 1 * (j 2).val = (j 2).val; omega

/-- An index of the output is in point `t`'s block iff each coordinate is in the block's range on its axis. -/
theorem mem_blk8 (t : Fin cfg0.N) (i : S2048x64x32.Idx) :
    i ∈ ((cfg0.win 8).blk t).view.set ↔ ∀ a : Fin 3, win0_8.index t a * S16x64x32.size a ≤ (i a).val ∧ (i a).val < win0_8.index t a * S16x64x32.size a + S16x64x32.size a := by
  show i ∈ ((View.whole main_v0_0).slice (win0_8.rect t)).set ↔ _
  rw [View.set_slice_whole, Rect.mem_set_unit]
  exact Iff.rfl

/-- Every index of the output is in the block of the point `row / 16`. -/
theorem cover8 (i : S2048x64x32.Idx) : ∃ t : Fin cfg0.N, (cfg0.win 8).flush t = true ∧ i ∈ ((cfg0.win 8).blk t).view.set := by
  have hi0 : (i 0).val < 2048 := (i 0).isLt
  have hi1 : (i 1).val < 64 := (i 1).isLt
  have hi2 : (i 2).val < 32 := (i 2).isLt
  have hN : grid0.N = 128 := N_0
  obtain ⟨t, ht⟩ : ∃ t : Fin cfg0.N, t.val = (i 0).val / 16 := ⟨⟨(i 0).val / 16, by show (i 0).val / 16 < grid0.N; rw [hN]; omega⟩, rfl⟩
  obtain ⟨e0, e1, e2⟩ := index_out8 t
  refine ⟨t, flush0_8 t, ?_⟩
  rw [mem_blk8]
  intro a
  match a with
  | ⟨0, _⟩ => show win0_8.index t (0 : Fin 3) * 16 ≤ (i 0).val ∧ (i 0).val < win0_8.index t (0 : Fin 3) * 16 + 16; omega
  | ⟨1, _⟩ => show win0_8.index t (1 : Fin 3) * 64 ≤ (i 1).val ∧ (i 1).val < win0_8.index t (1 : Fin 3) * 64 + 64; omega
  | ⟨2, _⟩ => show win0_8.index t (2 : Fin 3) * 32 ≤ (i 2).val ∧ (i 2).val < win0_8.index t (2 : Fin 3) * 32 + 32; omega

/-- After the region the first output array is the log-intensity array of the inputs. -/
theorem final8 (c : Dev nD) : (dats m 0 c).arrAt 8 cfg0.N
    = logIntensity (m ((c : Thread nD τ).loc main_arg3)) (m ((c : Thread nD τ).loc main_arg9)) (m ((c : Thread nD τ).loc main_arg10)) :=
  (dats m 0 c).arrAt_eq_of_cover 8 _ (fun t _ => flushed8_eq m c t) cover8

/-! ## The simulated-intensity-sum output -/

/-- What point `t` writes back is block `t` of the simulated-intensity-sum array of the inputs as the region finds them. -/
theorem flushed9_eq (c : Dev nD) (t : Fin cfg0.N) :
    (dats m 0 c).flushed 9 t = ((cfg0.win 9).blk t).view.read (Elt Ideal)
      (simSum (V m c main_arg4) (V m c main_arg5) (V m c main_arg7) (V m c main_arg6) (V m c main_arg8) (V m c main_arg9) (V m c main_arg10)) := by
  show (cfg0.win 9).cut (grid0.coords t) ((dats m 0 c).after 9 t) = _
  rw [after0_9]
  unfold out0_9
  rw [View.canon_unit_zero hz2]
  simp only [View.ld_unit_zero (S := S256x32) hz2, View.ld_unit_zero (S := S32) hz1, View.ld_unit_zero (S := S16x64x256) hz3,
    View.ld_unit_zero (S := S16x64) hz2]
  obtain ⟨e0, e1⟩ := index_out9 t
  funext j
  show k0_pay1 (F := Ideal) (k0_pay2 (iblk m c 6 t)) (iblk m c 7 t) (iblk m c 1 t) (iblk m c 2 t) (iblk m c 4 t) (iblk m c 3 t) (iblk m c 5 t) j
    = simSum (V m c main_arg4) (V m c main_arg5) (V m c main_arg7) (V m c main_arg6) (V m c main_arg8) (V m c main_arg9) (V m c main_arg10)
        (((cfg0.win 9).blk t).view.emb j)
  refine simSum_point t.val (iblk m c 1 t) (iblk m c 2 t) (iblk m c 4 t) (iblk m c 3 t) (iblk m c 5 t) (iblk m c 6 t) (iblk m c 7 t)
    (V m c main_arg4) (V m c main_arg5) (V m c main_arg7) (V m c main_arg6) (V m c main_arg8) (V m c main_arg9) (V m c main_arg10)
    (iblk1_read m c t) (iblk2_read m c t) (iblk4_read m c t) (iblk3_read m c t) (iblk5_read m c t) (iblk6_read m c t) (iblk7_read m c t)
    j (((cfg0.win 9).blk t).view.emb j) ?_ ?_
  · show win0_9.index t (0 : Fin 2) * 16 + 1 * (j 0).val = t.val * 16 + (j 0).val; omega
  · show win0_9.index t (1 : Fin 2) * 64 + 1 * (j 1).val = (j 1).val; omega

theorem mem_blk9 (t : Fin cfg0.N) (i : S2048x64.Idx) :
    i ∈ ((cfg0.win 9).blk t).view.set ↔ ∀ a : Fin 2, win0_9.index t a * S16x64.size a ≤ (i a).val ∧ (i a).val < win0_9.index t a * S16x64.size a + S16x64.size a := by
  show i ∈ ((View.whole main_v0_1).slice (win0_9.rect t)).set ↔ _
  rw [View.set_slice_whole, Rect.mem_set_unit]
  exact Iff.rfl

theorem cover9 (i : S2048x64.Idx) : ∃ t : Fin cfg0.N, (cfg0.win 9).flush t = true ∧ i ∈ ((cfg0.win 9).blk t).view.set := by
  have hi0 : (i 0).val < 2048 := (i 0).isLt
  have hi1 : (i 1).val < 64 := (i 1).isLt
  have hN : grid0.N = 128 := N_0
  obtain ⟨t, ht⟩ : ∃ t : Fin cfg0.N, t.val = (i 0).val / 16 := ⟨⟨(i 0).val / 16, by show (i 0).val / 16 < grid0.N; rw [hN]; omega⟩, rfl⟩
  obtain ⟨e0, e1⟩ := index_out9 t
  refine ⟨t, flush0_9 t, ?_⟩
  rw [mem_blk9]
  intro a
  match a with
  | ⟨0, _⟩ => show win0_9.index t (0 : Fin 2) * 16 ≤ (i 0).val ∧ (i 0).val < win0_9.index t (0 : Fin 2) * 16 + 16; omega
  | ⟨1, _⟩ => show win0_9.index t (1 : Fin 2) * 64 ≤ (i 1).val ∧ (i 1).val < win0_9.index t (1 : Fin 2) * 64 + 64; omega

/-- After the region the second output array is the simulated-intensity-sum array of the inputs. -/
theorem final9 (c : Dev nD) : (dats m 0 c).arrAt 9 cfg0.N
    = simSum (m ((c : Thread nD τ).loc main_arg4)) (m ((c : Thread nD τ).loc main_arg5)) (m ((c : Thread nD τ).loc main_arg7))
        (m ((c : Thread nD τ).loc main_arg6)) (m ((c : Thread nD τ).loc main_arg8)) (m ((c : Thread nD τ).loc main_arg9))
        (m ((c : Thread nD τ).loc main_arg10)) :=
  (dats m 0 c).arrAt_eq_of_cover 9 _ (fun t _ => flushed9_eq m c t) cover9

end Cert.KernelIdeal.Arrays

end
-- ==== Proof.RefValue.lean ====
/-
  The reference's two intermediate arrays, read at an index, are the specification's.

  The reference computes `log (softplus (einsum('lbh,hk->lbk', hidden, W) + bias))` and
  `softplus (einsum('lbh,hk->lbk', o · tanh (c̄ + (c − c̄) · exp (−δ · t[..., None])), W) + bias).sum(-1)` with whole-array
  operations. Entry by entry: the contraction is `Σ_h x[l, b, h] · W[h, k]`, the bias `[32]` spread to `[2048, 64, 32]`
  contributes `bias[k]`, the time `[2048, 64]` spread along the hidden axis contributes `t[l, b]`, and the sum over the
  last axis from the zero word is the sum over the 32 event types. Its softplus is the specification's with the guard
  spelt as an unordered comparison, which on the extended reals is the same test.
-/
import proofs.«117084_j9569187136166_1_alg».proof.Proof.RefRead
import proofs.«117084_j9569187136166_1_alg».proof.Proof.Intensity

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.Intensity

/-- The first softplus call, entry by entry, is the specification's softplus of its argument's entry. -/
theorem softplus_first (x3 : FVec Ideal S2048x64x256 .f32) (x9 : FVec Ideal S256x32 .f32) (x10 : FVec Ideal S32 .f32)
    (i : S2048x64x32.Idx) :
    val_main_v4 (F := Ideal) x3 x9 x10 i = softplus (val_main_v3 (F := Ideal) x3 x9 x10 i) := by
  simp only [val_main_v4_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  rfl

/-- The second softplus call, likewise. -/
theorem softplus_second (x4 x5 x6 x7 : FVec Ideal S2048x64x256 .f32) (x8 : FVec Ideal S2048x64 .f32)
    (x9 : FVec Ideal S256x32 .f32) (x10 : FVec Ideal S32 .f32) (i : S2048x64x32.Idx) :
    val_main_v35 (F := Ideal) x4 x5 x6 x7 x8 x9 x10 i = softplus (val_main_v34 (F := Ideal) x4 x5 x6 x7 x8 x9 x10 i) := by
  simp only [val_main_v35_apply, val_main_call3_v4_apply, val_main_call3_v6_apply, val_main_call3_v11_apply,
    val_main_call3_v1_apply, val_main_call3_v10_apply, val_main_call3_v9_apply, val_main_call3_v8_apply,
    val_main_call3_v7_apply, val_main_call3_v3_apply, val_main_call3_v0_apply, val_main_call3_v2_apply,
    val_main_call3_v5_apply, val_main_call3_cst_apply]
  rfl

/-- The reference's log-intensity array at `(l, b, k)`. -/
theorem logIntensity_ref (x3 : FVec Ideal S2048x64x256 .f32) (x9 : FVec Ideal S256x32 .f32) (x10 : FVec Ideal S32 .f32)
    (l : Fin 2048) (b : Fin 64) (k : Fin 32) :
    val_main_v5 (F := Ideal) x3 x9 x10 (ix3 l b k) = logIntensityAt x3 x9 x10 l b k := by
  have e1 : ∀ h : Fin 256, lidx_main_v0 (ix3 l b k) h = ix3 l b h := fun h => funext fun a => Fin.ext (by
    match a with | ⟨0, _⟩ => rfl | ⟨1, _⟩ => rfl | ⟨2, _⟩ => rfl)
  have e2 : ∀ h : Fin 256, ridx_main_v0 (ix3 l b k) h = ix2 h k := fun h => funext fun a => Fin.ext (by
    match a with | ⟨0, _⟩ => rfl | ⟨1, _⟩ => rfl)
  have e3 : idx_main_v1 (idx_main_v2 (ix3 l b k)) = ix1 k := funext fun a => Fin.ext (by
    match a with | ⟨0, _⟩ => rfl)
  rw [val_main_v5_apply, softplus_first, val_main_v3_apply, val_main_v0_apply, val_main_v2_apply, val_main_v1_apply]
  simp only [e1, e2, e3]
  rfl

/-- The reference's decayed hidden state at `(l, b, h)`. -/
theorem decayedHidden_ref (x4 x5 x6 x7 : FVec Ideal S2048x64x256 .f32) (x8 : FVec Ideal S2048x64 .f32)
    (l : Fin 2048) (b : Fin 64) (h : Fin 256) :
    val_main_v30 (F := Ideal) x4 x5 x6 x7 x8 (ix3 l b h) = decayedHiddenAt x4 x5 x7 x6 x8 l b h := by
  have e : idx_main_v23 (idx_main_v24 (ix3 l b h)) = ix2 l b := funext fun a => Fin.ext (by
    match a with | ⟨0, _⟩ => rfl | ⟨1, _⟩ => rfl)
  rw [val_main_v30_apply, val_main_v29_apply, val_main_v28_apply, val_main_v27_apply, val_main_v26_apply,
    val_main_v25_apply, val_main_v24_apply, val_main_v23_apply, val_main_v22_apply, val_main_v21_apply, e]
  rfl

/-- The reference's simulated-intensity sums at `(l, b)`. -/
theorem simSum_ref (x4 x5 x6 x7 : FVec Ideal S2048x64x256 .f32) (x8 : FVec Ideal S2048x64 .f32)
    (x9 : FVec Ideal S256x32 .f32) (x10 : FVec Ideal S32 .f32) (l : Fin 2048) (b : Fin 64) :
    val_main_v36 (F := Ideal) x4 x5 x6 x7 x8 x9 x10 (ix2 l b) = simSumAt x4 x5 x7 x6 x8 x9 x10 l b := by
  rw [val_main_v36_apply, val_main_cst_1_apply, Ideal.ofBits_def, Ideal.ofBits_zero_f32, zero_add]
  unfold simSumAt
  refine Finset.sum_congr rfl fun k _ => ?_
  have e0 : idx_main_v36 (ix2 l b) k = ix3 l b k := funext fun a => Fin.ext (by
    match a with | ⟨0, _⟩ => rfl | ⟨1, _⟩ => rfl | ⟨2, _⟩ => rfl)
  have e1 : ∀ h : Fin 256, lidx_main_v31 (ix3 l b k) h = ix3 l b h := fun h => funext fun a => Fin.ext (by
    match a with | ⟨0, _⟩ => rfl | ⟨1, _⟩ => rfl | ⟨2, _⟩ => rfl)
  have e2 : ∀ h : Fin 256, ridx_main_v31 (ix3 l b k) h = ix2 h k := fun h => funext fun a => Fin.ext (by
    match a with | ⟨0, _⟩ => rfl | ⟨1, _⟩ => rfl)
  have e3 : idx_main_v32 (idx_main_v33 (ix3 l b k)) = ix1 k := funext fun a => Fin.ext (by
    match a with | ⟨0, _⟩ => rfl)
  rw [e0, softplus_second, val_main_v34_apply, val_main_v31_apply, val_main_v33_apply, val_main_v32_apply]
  simp only [e1, e2, e3, decayedHidden_ref]
  rfl

end Cert.ReferenceIdeal.RefValue

end
-- ==== Proof.KernelTail.lean ====
/-
  The host operations after the kernel's region, read as the reference's own stages.

  After the region the program gathers the log-intensities at the shifted events, masks them by the sequence lengths and
  sums; transposes the simulated intensity sums, masks, sums per sequence, weights by total time over length, sums; and
  returns the negated difference. These are, operation for operation, the reference's operations after it has computed
  its two arrays. They are read in two stretches (up to the masked gathered values; then the sums) from contents that
  hold, in the region's two output arrays, the reference's two arrays of inputs `x3 … x10`: the result is then the
  reference's result stage of the inputs. That the region's outputs are those arrays is the value of the region
  (both are the specification's arrays).
-/
import proofs.«117084_j9569187136166_1_alg».proof.Proof.Gen.KernelIdeal.Frame
import proofs.«117084_j9569187136166_1_alg».proof.Proof.KernelArrays
import proofs.«117084_j9569187136166_1_alg».proof.Proof.RefRead
import proofs.«117084_j9569187136166_1_alg».proof.Proof.RefValue
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo
open Idealize.ShloMosaic.ValueIdx Cert.Intensity
open Cert.ReferenceIdeal.ReadP (val_main_v5 val_main_v36 val_main_v19 val_main_v11 val_main_v45)

/-- Up to the masked gathered log-intensities (38 operations). -/
abbrev opsGather : List (HloOp τ sig (Elt Ideal)) := hostOps1 ++ (hostOps1_1 ++ (hostOps1_2 ++ hostOps1_3))
/-- The sums and the difference (16 operations). -/
abbrev opsSums : List (HloOp τ sig (Elt Ideal)) := hostOps1_4 ++ (hostOps1_5 ++ hostOps1_6)

theorem tail_split : (List.flatten [hostOps1, hostOps1_1, hostOps1_2, hostOps1_3, hostOps1_4, hostOps1_5, hostOps1_6] : List (HloOp τ sig (Elt Ideal))) = opsGather ++ opsSums := rfl

/-- The contents after two stretches run one after the other are the second's from the first's. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-! ## The two reshapes, with their shapes written out

A reshape keeps every element at its row-major position, so its result is the operand re-indexed at the result's shape:
`[64, 2048, 1] → [64, 2048, 1, 1]` for the gather's indices, `[64, 2048, 1] → [64, 2048]` for the gathered values. -/

theorem reshape_gatherIndex (W : Valuation τ sig (Elt Ideal)) :
    (StableHlo.TRef.reshape (τ := τ) (Val := Elt Ideal) (.of main_call0_v4 : StableHlo.TRef sig ⟨S64x2048x1, .i32⟩) (.of main_call0_v5 : StableHlo.TRef sig ⟨S64x2048x1x1, .i32⟩) rfl shapeCasts_S64x2048x1_S64x2048x1x1).result W (no_index (Proc.devRef .tc main_call0_v5))
      = shapeCast S64x2048x1x1 (W (Proc.devRef .tc main_call0_v4)) shapeCasts_S64x2048x1_S64x2048x1x1 := by
  rw [reshape_result']
  rfl

theorem reshape_gathered (W : Valuation τ sig (Elt Ideal)) :
    (StableHlo.reshape (τ := τ) (Val := Elt Ideal) main_v12 main_v13 rfl shapeCasts_S64x2048x1_S64x2048).result W (no_index (Proc.devRef .tc main_v13))
      = shapeCast S64x2048 (W (Proc.devRef .tc main_v12)) shapeCasts_S64x2048x1_S64x2048 := by
  rw [reshape_result']
  rfl

/-! ## The first stretch -/

section Gather
variable (W : Valuation τ sig (Elt Ideal))

-- the gather's range mask is the conjunction, along a unit axis, of the tests `0 ≤ index` and `index ≤ 31`: it is one
-- function of the two tests, and the two tests are the same on both sides
attribute [local irreducible] Host.reduce

set_option maxRecDepth 8192 in
set_option maxHeartbeats 8000000 in
/-- From contents whose first output array holds the reference's log-intensities of `x3, x9, x10`, it leaves the
    reference's masked gathered values of `x0, x1, x3, x9, x10`. -/
theorem gather_v14 (x0 : (⟨Cert.ReferenceIdeal.S64x2048, .i32⟩ : BufTy).Contents (Elt Ideal)) (x1 : (⟨Cert.ReferenceIdeal.S64, .i32⟩ : BufTy).Contents (Elt Ideal)) (x3 : (⟨Cert.ReferenceIdeal.S2048x64x256, .f32⟩ : BufTy).Contents (Elt Ideal)) (x9 : (⟨Cert.ReferenceIdeal.S256x32, .f32⟩ : BufTy).Contents (Elt Ideal)) (x10 : (⟨Cert.ReferenceIdeal.S32, .f32⟩ : BufTy).Contents (Elt Ideal))
    (h0 : x0 = W (Proc.devRef .tc main_arg0)) (h1 : x1 = W (Proc.devRef .tc main_arg1))
    (hli : W (Proc.devRef .tc main_v0_0) = val_main_v5 (F := Ideal) x3 x9 x10) :
    after opsGather W (Proc.devRef .tc main_v14) = Cert.ReferenceIdeal.ReadP.val_main_v19 (F := Ideal) x0 x1 x3 x9 x10 := by
  subst h0 h1
  simp only [opsGather, hostOps1, hostOps1_1, hostOps1_2, hostOps1_3, List.cons_append, List.nil_append]
  simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered]
  rw [hli]
  rfl

set_option maxRecDepth 8192 in
set_option maxHeartbeats 8000000 in
/-- It leaves the length mask. -/
theorem gather_v6 : after opsGather W (Proc.devRef .tc main_v6) = val_main_v11 (F := Ideal) (W (Proc.devRef .tc main_arg1)) := by
  simp only [opsGather, hostOps1, hostOps1_1, hostOps1_2, hostOps1_3, List.cons_append, List.nil_append]
  simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered] <;> rfl

set_option maxRecDepth 8192 in
set_option maxHeartbeats 8000000 in
theorem gather_keep_main_v0_1 : after opsGather W (Proc.devRef .tc main_v0_1) = W (Proc.devRef .tc main_v0_1) := by
  simp only [opsGather, hostOps1, hostOps1_1, hostOps1_2, hostOps1_3, List.cons_append, List.nil_append]
  simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered] <;> rfl
set_option maxRecDepth 8192 in
set_option maxHeartbeats 8000000 in
theorem gather_keep_main_arg1 : after opsGather W (Proc.devRef .tc main_arg1) = W (Proc.devRef .tc main_arg1) := by
  simp only [opsGather, hostOps1, hostOps1_1, hostOps1_2, hostOps1_3, List.cons_append, List.nil_append]
  simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered] <;> rfl
set_option maxRecDepth 8192 in
set_option maxHeartbeats 8000000 in
theorem gather_keep_main_arg2 : after opsGather W (Proc.devRef .tc main_arg2) = W (Proc.devRef .tc main_arg2) := by
  simp only [opsGather, hostOps1, hostOps1_1, hostOps1_2, hostOps1_3, List.cons_append, List.nil_append]
  simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered] <;> rfl

end Gather

/-! ## The second stretch -/

set_option maxRecDepth 8192 in
set_option maxHeartbeats 8000000 in
/-- From contents holding the first stretch's masked gathered values and mask, and in the second output array the
    reference's simulated intensity sums, it leaves the reference's result of the inputs. -/
theorem sums_v24 (W : Valuation τ sig (Elt Ideal)) (x0 : (⟨Cert.ReferenceIdeal.S64x2048, .i32⟩ : BufTy).Contents (Elt Ideal)) (x1 : (⟨Cert.ReferenceIdeal.S64, .i32⟩ : BufTy).Contents (Elt Ideal)) (x2 : (⟨Cert.ReferenceIdeal.S64, .f32⟩ : BufTy).Contents (Elt Ideal)) (x3 : (⟨Cert.ReferenceIdeal.S2048x64x256, .f32⟩ : BufTy).Contents (Elt Ideal)) (x4 : (⟨Cert.ReferenceIdeal.S2048x64x256, .f32⟩ : BufTy).Contents (Elt Ideal)) (x5 : (⟨Cert.ReferenceIdeal.S2048x64x256, .f32⟩ : BufTy).Contents (Elt Ideal)) (x6 : (⟨Cert.ReferenceIdeal.S2048x64x256, .f32⟩ : BufTy).Contents (Elt Ideal)) (x7 : (⟨Cert.ReferenceIdeal.S2048x64x256, .f32⟩ : BufTy).Contents (Elt Ideal)) (x8 : (⟨Cert.ReferenceIdeal.S2048x64, .f32⟩ : BufTy).Contents (Elt Ideal)) (x9 : (⟨Cert.ReferenceIdeal.S256x32, .f32⟩ : BufTy).Contents (Elt Ideal)) (x10 : (⟨Cert.ReferenceIdeal.S32, .f32⟩ : BufTy).Contents (Elt Ideal))
    (h1 : x1 = W (Proc.devRef .tc main_arg1)) (h2 : x2 = W (Proc.devRef .tc main_arg2))
    (h14 : W (Proc.devRef .tc main_v14) = val_main_v19 (F := Ideal) x0 x1 x3 x9 x10)
    (h6 : W (Proc.devRef .tc main_v6) = val_main_v11 (F := Ideal) x1)
    (hss : W (Proc.devRef .tc main_v0_1) = val_main_v36 (F := Ideal) x4 x5 x6 x7 x8 x9 x10) :
    after opsSums W (Proc.devRef .tc main_v24) = val_main_v45 (F := Ideal) x0 x1 x2 x3 x4 x5 x6 x7 x8 x9 x10 := by
  subst h1 h2
  simp only [opsSums, hostOps1_4, hostOps1_5, hostOps1_6, List.cons_append, List.nil_append]
  after_results_simp
  rw [h14, h6, hss]
  rfl

/-! ## The reference's two arrays are the specification's -/

theorem logIntensity_eq_ref (x3 : (⟨Cert.ReferenceIdeal.S2048x64x256, .f32⟩ : BufTy).Contents (Elt Ideal)) (x9 : (⟨Cert.ReferenceIdeal.S256x32, .f32⟩ : BufTy).Contents (Elt Ideal)) (x10 : (⟨Cert.ReferenceIdeal.S32, .f32⟩ : BufTy).Contents (Elt Ideal)) : logIntensity x3 x9 x10 = val_main_v5 (F := Ideal) x3 x9 x10 := by
  funext i
  obtain ⟨l, b, k, rfl⟩ : ∃ (l : Fin 2048) (b : Fin 64) (k : Fin 32), i = ix3 l b k := ⟨i 0, i 1, i 2, eq_ix3 i⟩
  rw [Cert.ReferenceIdeal.RefValue.logIntensity_ref, logIntensity_ix3]

theorem simSum_eq_ref (x4 : (⟨Cert.ReferenceIdeal.S2048x64x256, .f32⟩ : BufTy).Contents (Elt Ideal)) (x5 : (⟨Cert.ReferenceIdeal.S2048x64x256, .f32⟩ : BufTy).Contents (Elt Ideal)) (x6 : (⟨Cert.ReferenceIdeal.S2048x64x256, .f32⟩ : BufTy).Contents (Elt Ideal)) (x7 : (⟨Cert.ReferenceIdeal.S2048x64x256, .f32⟩ : BufTy).Contents (Elt Ideal)) (x8 : (⟨Cert.ReferenceIdeal.S2048x64, .f32⟩ : BufTy).Contents (Elt Ideal)) (x9 : (⟨Cert.ReferenceIdeal.S256x32, .f32⟩ : BufTy).Contents (Elt Ideal)) (x10 : (⟨Cert.ReferenceIdeal.S32, .f32⟩ : BufTy).Contents (Elt Ideal)) :
    simSum x4 x5 x7 x6 x8 x9 x10 = val_main_v36 (F := Ideal) x4 x5 x6 x7 x8 x9 x10 := by
  funext i
  obtain ⟨l, b, rfl⟩ : ∃ (l : Fin 2048) (b : Fin 64), i = ix2 l b := ⟨i 0, i 1, eq_ix2 i⟩
  rw [Cert.ReferenceIdeal.RefValue.simSum_ref, simSum_ix2]

/-! ## The result -/

variable (m : (ℓ : Loc nD τ sig) → Buf (Elt Ideal) ℓ)

/-- After the region and the host operations that follow it, the result buffer holds the reference's result stage of
    the inputs. -/
theorem tail_value (c : Dev nD) :
    Pipeline.afterTail₀ cfgs (dats m) 0 (V0 m) [hostOps1, hostOps1_1, hostOps1_2, hostOps1_3, hostOps1_4, hostOps1_5, hostOps1_6] c main_v24
      = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  rw [tail_split, after_append]
  have ha0 : Pipeline.withArrays spec0 c (V0 m c) (fun w => (dats m 0 c).arrAt w cfg0.N) (Proc.devRef .tc main_arg0) = m ((c : Thread nD τ).loc main_arg0) :=
    (Pipeline.withArrays_of_ne _ c (V0 m c) _ main_arg0 (by exact (by decide : ∀ w, Pipeline.arrRef spec0 w ≠ main_arg0))).trans (V_main_arg0 m c)
  have ha1 : Pipeline.withArrays spec0 c (V0 m c) (fun w => (dats m 0 c).arrAt w cfg0.N) (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  have ha2 : Pipeline.withArrays spec0 c (V0 m c) (fun w => (dats m 0 c).arrAt w cfg0.N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  have hli : Pipeline.withArrays spec0 c (V0 m c) (fun w => (dats m 0 c).arrAt w cfg0.N) (Proc.devRef .tc main_v0_0)
      = val_main_v5 (F := Ideal) (m ((c : Thread nD τ).loc main_arg3)) (m ((c : Thread nD τ).loc main_arg9)) (m ((c : Thread nD τ).loc main_arg10)) :=
    (Pipeline.withArrays_arr spec0 launch0.win.arr_inj c _ _ 8).trans ((Cert.KernelIdeal.Arrays.final8 m c).trans (logIntensity_eq_ref _ _ _))
  have hss : Pipeline.withArrays spec0 c (V0 m c) (fun w => (dats m 0 c).arrAt w cfg0.N) (Proc.devRef .tc main_v0_1)
      = val_main_v36 (F := Ideal) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
    (Pipeline.withArrays_arr spec0 launch0.win.arr_inj c _ _ 9).trans ((Cert.KernelIdeal.Arrays.final9 m c).trans (simSum_eq_ref _ _ _ _ _ _ _))
  refine sums_v24 _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ?_ ?_ ?_ ?_ ?_
  · exact ((gather_keep_main_arg1 _).trans ha1).symm
  · exact ((gather_keep_main_arg2 _).trans ha2).symm
  · exact gather_v14 _ (m ((c : Thread nD τ).loc main_arg0)) (m ((c : Thread nD τ).loc main_arg1)) (m ((c : Thread nD τ).loc main_arg3)) (m ((c : Thread nD τ).loc main_arg9)) (m ((c : Thread nD τ).loc main_arg10)) ha0.symm ha1.symm hli
  · exact (gather_v6 _).trans (congrArg (val_main_v11 (F := Ideal)) ha1)
  · exact (gather_keep_main_v0_1 _).trans hss

end Cert.KernelIdeal.Tail

end
-- ==== Proof.KernelRun.lean ====
/-
  The kernel program's run with its result named: every weakly fair execution terminates with the result buffer at the
  reference's result stage of the inputs, and the inputs unchanged.

  The generated frame run ends with every array of the region at what the region's proof data computes and every other
  buffer as the host operations after the region leave it. The result buffer is one of the latter, and its contents are
  the reference's result stage of the inputs; the three integer and scalar inputs are no array of the region and no
  operation writes them; the eight array inputs are the region's input windows, which end as they were launched.
-/
import proofs.«117084_j9569187136166_1_alg».proof.Proof.Gen.KernelIdeal.Frame
import proofs.«117084_j9569187136166_1_alg».proof.Proof.KernelTail

noncomputable section

namespace Cert.KernelIdeal.Run

open Cert.KernelIdeal Cert.KernelIdeal.Gen Idealize.ShloMosaic Idealize.ShloMosaic.TcCoe Idealize.SL.Sem
open Cert.ReferenceIdeal.ReadP (val_main_v45)

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v24)
        = val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v24 (Pipeline.mem_restRefs_of main_v24 (by decide) (by decide))).trans (Cert.KernelIdeal.Tail.tail_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c))),
      ((h c).1 5).trans (((dats m 0 c).arrAt_in 5 rfl _).trans ((A_eq m c 5).trans (V_main_arg8 m c))),
      ((h c).1 6).trans (((dats m 0 c).arrAt_in 6 rfl _).trans ((A_eq m c 6).trans (V_main_arg9 m c))),
      ((h c).1 7).trans (((dats m 0 c).arrAt_in 7 rfl _).trans ((A_eq m c 7).trans (V_main_arg10 m c)))⟩)
    (run_main m ρ)

end Cert.KernelIdeal.Run

end
-- ==== Proof.RefRun.lean ====
/-
  The reference program's run: every weakly fair execution terminates with its result at the composition of its 103
  operations applied to the inputs, the inputs unchanged.

  The program is a straight line of host operations, so its final memory is the fold of the operations' results over
  the launch contents. The result's value is read off that fold in three stretches. The first 19 operations compute the
  log-intensities. The next 40 gather them at the shifted events, mask them by the sequence lengths and sum: of what they
  write, the later operations read only that scalar and the length mask. The last 44 compute the simulated intensities,
  their masked sums weighted per sequence, and the difference. Each stretch is read on its own as the composition of its
  operations, from any contents that hold what the earlier stretches left.
-/
import proofs.«117084_j9569187136166_1_alg».proof.Proof.RefRead
import Idealize.ShloMosaic.Lib.StableHlo.Run

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 103 operations, in order (a called function's operations stand in its call's place). -/
abbrev ops : List (HloOp τ sig (Elt F)) :=
  [ binary main_arg3 main_arg9 main_v0 ((fun l r => Host.dotGeneral dot_S2048x64x256_S256x32_S2048x64x32_2_0_01_1_n_n none l r) : (⟨S2048x64x256, .f32⟩ : BufTy).Contents (Elt F) → (⟨S256x32, .f32⟩ : BufTy).Contents (Elt F) → (⟨S2048x64x32, .f32⟩ : BufTy).Contents (Elt F)),
    unary main_arg10 main_v1 (broadcastInDim S1x1x32 ![2] bcast_S32_S1x1x32_2 : (⟨S32, .f32⟩ : BufTy).Contents (Elt F) → (⟨S1x1x32, .f32⟩ : BufTy).Contents (Elt F)),
    unary main_v1 main_v2 (broadcastInDim S2048x64x32 ![0, 1, 2] bcast_S1x1x32_S2048x64x32_0_1_2 : (⟨S1x1x32, .f32⟩ : BufTy).Contents (Elt F) → (⟨S2048x64x32, .f32⟩ : BufTy).Contents (Elt F)),
    binary main_v0 main_v2 main_v3 (addf : (⟨S2048x64x32, .f32⟩ : BufTy).Contents (Elt F) → (⟨S2048x64x32, .f32⟩ : BufTy).Contents (Elt F) → (⟨S2048x64x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2048x64x32, .f32⟩) main_call0_v0) (broadcastInDim S2048x64x32 ![] bcast_S_S2048x64x32),
    TRef.binary (TRef.of (T := ⟨S2048x64x32, .f32⟩) main_v3) (TRef.of (T := ⟨S2048x64x32, .f32⟩) main_call0_v0) (TRef.of (T := ⟨S2048x64x32, .f32⟩) main_call0_v1) maximumf,
    TRef.unary (TRef.of (T := ⟨S_, .f32⟩) main_call0_cst) (TRef.of (T := ⟨S2048x64x32, .f32⟩) main_call0_v2) (broadcastInDim S2048x64x32 ![] bcast_S_S2048x64x32),
    TRef.binary (TRef.of (T := ⟨S2048x64x32, .f32⟩) main_v3) (TRef.of (T := ⟨S2048x64x32, .f32⟩) main_call0_v2) (TRef.of (T := ⟨S2048x64x32, .f32⟩) main_call0_v3) subf,
    TRef.binary (TRef.of (T := ⟨S2048x64x32, .f32⟩) main_call0_v3) (TRef.of (T := ⟨S2048x64x32, .f32⟩) main_call0_v3) (TRef.of (T := ⟨S2048x64x32, .i1⟩) main_call0_v4) (cmpf .une),
    TRef.unary (TRef.of (T := ⟨S_, .f32⟩) main_call0_cst) (TRef.of (T := ⟨S2048x64x32, .f32⟩) main_call0_v5) (broadcastInDim S2048x64x32 ![] bcast_S_S2048x64x32),
    TRef.binary (TRef.of (T := ⟨S2048x64x32, .f32⟩) main_v3) (TRef.of (T := ⟨S2048x64x32, .f32⟩) main_call0_v5) (TRef.of (T := ⟨S2048x64x32, .f32⟩) main_call0_v6) addf,
    TRef.unary (TRef.of (T := ⟨S2048x64x32, .f32⟩) main_call0_v3) (TRef.of (T := ⟨S2048x64x32, .f32⟩) main_call0_v7) Host.absf,
    TRef.unary (TRef.of (T := ⟨S2048x64x32, .f32⟩) main_call0_v7) (TRef.of (T := ⟨S2048x64x32, .f32⟩) main_call0_v8) Host.negf,
    TRef.unary (TRef.of (T := ⟨S2048x64x32, .f32⟩) main_call0_v8) (TRef.of (T := ⟨S2048x64x32, .f32⟩) main_call0_v9) Host.exp,
    TRef.unary (TRef.of (T := ⟨S2048x64x32, .f32⟩) main_call0_v9) (TRef.of (T := ⟨S2048x64x32, .f32⟩) main_call0_v10) Host.log1p,
    TRef.binary (TRef.of (T := ⟨S2048x64x32, .f32⟩) main_call0_v1) (TRef.of (T := ⟨S2048x64x32, .f32⟩) main_call0_v10) (TRef.of (T := ⟨S2048x64x32, .f32⟩) main_call0_v11) addf,
    TRef.ternary (TRef.of (T := ⟨S2048x64x32, .i1⟩) main_call0_v4) (TRef.of (T := ⟨S2048x64x32, .f32⟩) main_call0_v6) (TRef.of (T := ⟨S2048x64x32, .f32⟩) main_call0_v11) (TRef.of (T := ⟨S2048x64x32, .f32⟩) main_v4) select,
    unary main_v4 main_v5 (Host.log : (⟨S2048x64x32, .f32⟩ : BufTy).Contents (Elt F) → (⟨S2048x64x32, .f32⟩ : BufTy).Contents (Elt F)),
    nullary main_v6 (iotaInDim S2048 32 0),
    unary main_v6 main_v7 (broadcastInDim S1x2048 ![1] bcast_S2048_S1x2048_1 : (⟨S2048, .i32⟩ : BufTy).Contents (Elt F) → (⟨S1x2048, .i32⟩ : BufTy).Contents (Elt F)),
    unary main_arg1 main_v8 (broadcastInDim S64x1 ![0] bcast_S64_S64x1_0 : (⟨S64, .i32⟩ : BufTy).Contents (Elt F) → (⟨S64x1, .i32⟩ : BufTy).Contents (Elt F)),
    unary main_v7 main_v9 (broadcastInDim S64x2048 ![0, 1] bcast_S1x2048_S64x2048_0_1 : (⟨S1x2048, .i32⟩ : BufTy).Contents (Elt F) → (⟨S64x2048, .i32⟩ : BufTy).Contents (Elt F)),
    unary main_v8 main_v10 (broadcastInDim S64x2048 ![0, 1] bcast_S64x1_S64x2048_0_1 : (⟨S64x1, .i32⟩ : BufTy).Contents (Elt F) → (⟨S64x2048, .i32⟩ : BufTy).Contents (Elt F)),
    binary main_v9 main_v10 main_v11 (cmpi .slt : (⟨S64x2048, .i32⟩ : BufTy).Contents (Elt F) → (⟨S64x2048, .i32⟩ : BufTy).Contents (Elt F) → (⟨S64x2048, .i1⟩ : BufTy).Contents (Elt F)),
    unary main_arg0 main_v12 ((extractStridedSlice S64x2047 ![0, 1] · slices_S64x2048_S64x2047_0_1) : (⟨S64x2048, .i32⟩ : BufTy).Contents (Elt F) → (⟨S64x2047, .i32⟩ : BufTy).Contents (Elt F)),
    unary main_arg0 main_v13 ((extractStridedSlice S64x1 ![0, 0] · slices_S64x2048_S64x1_0_0) : (⟨S64x2048, .i32⟩ : BufTy).Contents (Elt F) → (⟨S64x1, .i32⟩ : BufTy).Contents (Elt F)),
    binary main_v12 main_v13 main_v14 ((fun a b => concatenate S64x2048 1 [⟨S64x2047, a⟩, ⟨S64x1, b⟩] concatenates_S64x2047_S64x1_S64x2048_d1) : (⟨S64x2047, .i32⟩ : BufTy).Contents (Elt F) → (⟨S64x1, .i32⟩ : BufTy).Contents (Elt F) → (⟨S64x2048, .i32⟩ : BufTy).Contents (Elt F)),
    unary main_v5 main_v15 ((transpose S64x2048x32 [1, 0, 2] · transposes_S2048x64x32_S64x2048x32_1_0_2) : (⟨S2048x64x32, .f32⟩ : BufTy).Contents (Elt F) → (⟨S64x2048x32, .f32⟩ : BufTy).Contents (Elt F)),
    unary main_v14 main_v16 (broadcastInDim S64x2048x1 ![0, 1] bcast_S64x2048_S64x2048x1_0_1 : (⟨S64x2048, .i32⟩ : BufTy).Contents (Elt F) → (⟨S64x2048x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S64x2048x1, .i32⟩) main_call1_v0) (broadcastInDim S64x2048x1 ![] bcast_S_S64x2048x1),
    TRef.binary (TRef.of (T := ⟨S64x2048x1, .i32⟩) main_v16) (TRef.of (T := ⟨S64x2048x1, .i32⟩) main_call1_v0) (TRef.of (T := ⟨S64x2048x1, .i1⟩) main_call1_v1) (cmpi .slt),
    TRef.nullary (TRef.of (T := ⟨S_, .i32⟩) main_call1_c_0) (constantI S_ 32 32#32),
    TRef.unary (TRef.of (T := ⟨S_, .i32⟩) main_call1_c_0) (TRef.of (T := ⟨S64x2048x1, .i32⟩) main_call1_v2) (broadcastInDim S64x2048x1 ![] bcast_S_S64x2048x1),
    TRef.binary (TRef.of (T := ⟨S64x2048x1, .i32⟩) main_v16) (TRef.of (T := ⟨S64x2048x1, .i32⟩) main_call1_v2) (TRef.of (T := ⟨S64x2048x1, .i32⟩) main_call1_v3) addi,
    TRef.ternary (TRef.of (T := ⟨S64x2048x1, .i1⟩) main_call1_v1) (TRef.of (T := ⟨S64x2048x1, .i32⟩) main_call1_v3) (TRef.of (T := ⟨S64x2048x1, .i32⟩) main_v16) (TRef.of (T := ⟨S64x2048x1, .i32⟩) main_call1_v4) select,
    TRef.reshape (TRef.of (T := ⟨S64x2048x1, .i32⟩) main_call1_v4) (TRef.of (T := ⟨S64x2048x1x1, .i32⟩) main_call1_v5) rfl shapeCasts_S64x2048x1_S64x2048x1x1,
    TRef.nullary (TRef.of (T := ⟨S1, .i32⟩) main_call1_c_1) (constantI S1 32 31#32),
    TRef.nullary (TRef.of (T := ⟨S_, .i32⟩) main_call1_c_2) (constantI S_ 32 0#32),
    TRef.unary (TRef.of (T := ⟨S_, .i32⟩) main_call1_c_2) (TRef.of (T := ⟨S64x2048x1x1, .i32⟩) main_call1_v6) (broadcastInDim S64x2048x1x1 ![] bcast_S_S64x2048x1x1),
    TRef.binary (TRef.of (T := ⟨S64x2048x1x1, .i32⟩) main_call1_v5) (TRef.of (T := ⟨S64x2048x1x1, .i32⟩) main_call1_v6) (TRef.of (T := ⟨S64x2048x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S64x2048x1x1, .i32⟩) main_call1_v9) (broadcastInDim S64x2048x1x1 ![0, 1, 2, 3] bcast_S1x1x1x1_S64x2048x1x1_0_1_2_3),
    TRef.binary (TRef.of (T := ⟨S64x2048x1x1, .i32⟩) main_call1_v5) (TRef.of (T := ⟨S64x2048x1x1, .i32⟩) main_call1_v9) (TRef.of (T := ⟨S64x2048x1x1, .i1⟩) main_call1_v10) (cmpi .sle),
    TRef.binary (TRef.of (T := ⟨S64x2048x1x1, .i1⟩) main_call1_v7) (TRef.of (T := ⟨S64x2048x1x1, .i1⟩) main_call1_v10) (TRef.of (T := ⟨S64x2048x1x1, .i1⟩) main_call1_v11) andi,
    TRef.nullary (TRef.of (T := ⟨S_, .i1⟩) main_call1_c_3) (constantI S_ 1 1#1),
    TRef.binary (TRef.of (T := ⟨S64x2048x1x1, .i1⟩) main_call1_v11) (TRef.of (T := ⟨S_, .i1⟩) main_call1_c_3) (TRef.of (T := ⟨S64x2048x1, .i1⟩) main_call1_v12) (fun x v => Host.reduce IntOp.andi x v reducesTo_S64x2048x1x1_S64x2048x1_d3 h_S_),
    TRef.binary (TRef.of (T := ⟨S64x2048x32, .f32⟩) main_v15) (TRef.of (T := ⟨S64x2048x1x1, .i32⟩) main_call1_v5) (TRef.of (T := ⟨S64x2048x1, .f32⟩) main_call1_v13) (fun x i => Host.gather gather_S64x2048x32_S64x2048x1x1_S64x2048x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S64x2048x1, .f32⟩) main_call1_v14) (broadcastInDim S64x2048x1 ![] bcast_S_S64x2048x1),
    TRef.ternary (TRef.of (T := ⟨S64x2048x1, .i1⟩) main_call1_v12) (TRef.of (T := ⟨S64x2048x1, .f32⟩) main_call1_v13) (TRef.of (T := ⟨S64x2048x1, .f32⟩) main_call1_v14) (TRef.of (T := ⟨S64x2048x1, .f32⟩) main_v17) select,
    reshape main_v17 main_v18 rfl shapeCasts_S64x2048x1_S64x2048,
    nullary main_cst (constant S_ .f32 0x00000000#32),
    TRef.unary (TRef.of (T := ⟨S_, .f32⟩) main_cst) (TRef.of (T := ⟨S_, .f32⟩) main_call2_v0) id,
    TRef.unary (TRef.of (T := ⟨S_, .f32⟩) main_call2_v0) (TRef.of (T := ⟨S64x2048, .f32⟩) main_call2_v1) (broadcastInDim S64x2048 ![] bcast_S_S64x2048),
    TRef.ternary (TRef.of (T := ⟨S64x2048, .i1⟩) main_v11) (TRef.of (T := ⟨S64x2048, .f32⟩) main_v18) (TRef.of (T := ⟨S64x2048, .f32⟩) main_call2_v1) (TRef.of (T := ⟨S64x2048, .f32⟩) main_v19) select,
    nullary main_cst_0 (constant S_ .f32 0x00000000#32),
    binary main_v19 main_cst_0 main_v20 ((fun x v => Host.reduceAdd x v reducesTo_S64x2048_S_d0_1 h_S_) : (⟨S64x2048, .f32⟩ : BufTy).Contents (Elt F) → (⟨S_, .f32⟩ : BufTy).Contents (Elt F) → (⟨S_, .f32⟩ : BufTy).Contents (Elt F)),
    binary main_arg4 main_arg5 main_v21 (subf : (⟨S2048x64x256, .f32⟩ : BufTy).Contents (Elt F) → (⟨S2048x64x256, .f32⟩ : BufTy).Contents (Elt F) → (⟨S2048x64x256, .f32⟩ : BufTy).Contents (Elt F)),
    unary main_arg7 main_v22 (Host.negf : (⟨S2048x64x256, .f32⟩ : BufTy).Contents (Elt F) → (⟨S2048x64x256, .f32⟩ : BufTy).Contents (Elt F)),
    unary main_arg8 main_v23 (broadcastInDim S2048x64x1 ![0, 1] bcast_S2048x64_S2048x64x1_0_1 : (⟨S2048x64, .f32⟩ : BufTy).Contents (Elt F) → (⟨S2048x64x1, .f32⟩ : BufTy).Contents (Elt F)),
    unary main_v23 main_v24 (broadcastInDim S2048x64x256 ![0, 1, 2] bcast_S2048x64x1_S2048x64x256_0_1_2 : (⟨S2048x64x1, .f32⟩ : BufTy).Contents (Elt F) → (⟨S2048x64x256, .f32⟩ : BufTy).Contents (Elt F)),
    binary main_v22 main_v24 main_v25 (mulf : (⟨S2048x64x256, .f32⟩ : BufTy).Contents (Elt F) → (⟨S2048x64x256, .f32⟩ : BufTy).Contents (Elt F) → (⟨S2048x64x256, .f32⟩ : BufTy).Contents (Elt F)),
    unary main_v25 main_v26 (Host.exp : (⟨S2048x64x256, .f32⟩ : BufTy).Contents (Elt F) → (⟨S2048x64x256, .f32⟩ : BufTy).Contents (Elt F)),
    binary main_v21 main_v26 main_v27 (mulf : (⟨S2048x64x256, .f32⟩ : BufTy).Contents (Elt F) → (⟨S2048x64x256, .f32⟩ : BufTy).Contents (Elt F) → (⟨S2048x64x256, .f32⟩ : BufTy).Contents (Elt F)),
    binary main_arg5 main_v27 main_v28 (addf : (⟨S2048x64x256, .f32⟩ : BufTy).Contents (Elt F) → (⟨S2048x64x256, .f32⟩ : BufTy).Contents (Elt F) → (⟨S2048x64x256, .f32⟩ : BufTy).Contents (Elt F)),
    unary main_v28 main_v29 (Host.tanh : (⟨S2048x64x256, .f32⟩ : BufTy).Contents (Elt F) → (⟨S2048x64x256, .f32⟩ : BufTy).Contents (Elt F)),
    binary main_arg6 main_v29 main_v30 (mulf : (⟨S2048x64x256, .f32⟩ : BufTy).Contents (Elt F) → (⟨S2048x64x256, .f32⟩ : BufTy).Contents (Elt F) → (⟨S2048x64x256, .f32⟩ : BufTy).Contents (Elt F)),
    binary main_v30 main_arg9 main_v31 ((fun l r => Host.dotGeneral dot_S2048x64x256_S256x32_S2048x64x32_2_0_01_1_n_n none l r) : (⟨S2048x64x256, .f32⟩ : BufTy).Contents (Elt F) → (⟨S256x32, .f32⟩ : BufTy).Contents (Elt F) → (⟨S2048x64x32, .f32⟩ : BufTy).Contents (Elt F)),
    unary main_arg10 main_v32 (broadcastInDim S1x1x32 ![2] bcast_S32_S1x1x32_2 : (⟨S32, .f32⟩ : BufTy).Contents (Elt F) → (⟨S1x1x32, .f32⟩ : BufTy).Contents (Elt F)),
    unary main_v32 main_v33 (broadcastInDim S2048x64x32 ![0, 1, 2] bcast_S1x1x32_S2048x64x32_0_1_2 : (⟨S1x1x32, .f32⟩ : BufTy).Contents (Elt F) → (⟨S2048x64x32, .f32⟩ : BufTy).Contents (Elt F)),
    binary main_v31 main_v33 main_v34 (addf : (⟨S2048x64x32, .f32⟩ : BufTy).Contents (Elt F) → (⟨S2048x64x32, .f32⟩ : BufTy).Contents (Elt F) → (⟨S2048x64x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S2048x64x32, .f32⟩) main_call3_v0) (broadcastInDim S2048x64x32 ![] bcast_S_S2048x64x32),
    TRef.binary (TRef.of (T := ⟨S2048x64x32, .f32⟩) main_v34) (TRef.of (T := ⟨S2048x64x32, .f32⟩) main_call3_v0) (TRef.of (T := ⟨S2048x64x32, .f32⟩) main_call3_v1) maximumf,
    TRef.unary (TRef.of (T := ⟨S_, .f32⟩) main_call3_cst) (TRef.of (T := ⟨S2048x64x32, .f32⟩) main_call3_v2) (broadcastInDim S2048x64x32 ![] bcast_S_S2048x64x32),
    TRef.binary (TRef.of (T := ⟨S2048x64x32, .f32⟩) main_v34) (TRef.of (T := ⟨S2048x64x32, .f32⟩) main_call3_v2) (TRef.of (T := ⟨S2048x64x32, .f32⟩) main_call3_v3) subf,
    TRef.binary (TRef.of (T := ⟨S2048x64x32, .f32⟩) main_call3_v3) (TRef.of (T := ⟨S2048x64x32, .f32⟩) main_call3_v3) (TRef.of (T := ⟨S2048x64x32, .i1⟩) main_call3_v4) (cmpf .une),
    TRef.unary (TRef.of (T := ⟨S_, .f32⟩) main_call3_cst) (TRef.of (T := ⟨S2048x64x32, .f32⟩) main_call3_v5) (broadcastInDim S2048x64x32 ![] bcast_S_S2048x64x32),
    TRef.binary (TRef.of (T := ⟨S2048x64x32, .f32⟩) main_v34) (TRef.of (T := ⟨S2048x64x32, .f32⟩) main_call3_v5) (TRef.of (T := ⟨S2048x64x32, .f32⟩) main_call3_v6) addf,
    TRef.unary (TRef.of (T := ⟨S2048x64x32, .f32⟩) main_call3_v3) (TRef.of (T := ⟨S2048x64x32, .f32⟩) main_call3_v7) Host.absf,
    TRef.unary (TRef.of (T := ⟨S2048x64x32, .f32⟩) main_call3_v7) (TRef.of (T := ⟨S2048x64x32, .f32⟩) main_call3_v8) Host.negf,
    TRef.unary (TRef.of (T := ⟨S2048x64x32, .f32⟩) main_call3_v8) (TRef.of (T := ⟨S2048x64x32, .f32⟩) main_call3_v9) Host.exp,
    TRef.unary (TRef.of (T := ⟨S2048x64x32, .f32⟩) main_call3_v9) (TRef.of (T := ⟨S2048x64x32, .f32⟩) main_call3_v10) Host.log1p,
    TRef.binary (TRef.of (T := ⟨S2048x64x32, .f32⟩) main_call3_v1) (TRef.of (T := ⟨S2048x64x32, .f32⟩) main_call3_v10) (TRef.of (T := ⟨S2048x64x32, .f32⟩) main_call3_v11) addf,
    TRef.ternary (TRef.of (T := ⟨S2048x64x32, .i1⟩) main_call3_v4) (TRef.of (T := ⟨S2048x64x32, .f32⟩) main_call3_v6) (TRef.of (T := ⟨S2048x64x32, .f32⟩) main_call3_v11) (TRef.of (T := ⟨S2048x64x32, .f32⟩) main_v35) select,
    nullary main_cst_1 (constant S_ .f32 0x00000000#32),
    binary main_v35 main_cst_1 main_v36 ((fun x v => Host.reduceAdd x v reducesTo_S2048x64x32_S2048x64_d2 h_S_) : (⟨S2048x64x32, .f32⟩ : BufTy).Contents (Elt F) → (⟨S_, .f32⟩ : BufTy).Contents (Elt F) → (⟨S2048x64, .f32⟩ : BufTy).Contents (Elt F)),
    unary main_v36 main_v37 ((transpose S64x2048 [1, 0] · transposes_S2048x64_S64x2048_1_0) : (⟨S2048x64, .f32⟩ : BufTy).Contents (Elt F) → (⟨S64x2048, .f32⟩ : BufTy).Contents (Elt F)),
    nullary main_cst_2 (constant S_ .f32 0x00000000#32),
    TRef.unary (TRef.of (T := ⟨S_, .f32⟩) main_cst_2) (TRef.of (T := ⟨S_, .f32⟩) main_call4_v0) id,
    TRef.unary (TRef.of (T := ⟨S_, .f32⟩) main_call4_v0) (TRef.of (T := ⟨S64x2048, .f32⟩) main_call4_v1) (broadcastInDim S64x2048 ![] bcast_S_S64x2048),
    TRef.ternary (TRef.of (T := ⟨S64x2048, .i1⟩) main_v11) (TRef.of (T := ⟨S64x2048, .f32⟩) main_v37) (TRef.of (T := ⟨S64x2048, .f32⟩) main_call4_v1) (TRef.of (T := ⟨S64x2048, .f32⟩) main_v38) select,
    nullary main_cst_3 (constant S_ .f32 0x00000000#32),
    binary main_v38 main_cst_3 main_v39 ((fun x v => Host.reduceAdd x v reducesTo_S64x2048_S64_d1 h_S_) : (⟨S64x2048, .f32⟩ : BufTy).Contents (Elt F) → (⟨S_, .f32⟩ : BufTy).Contents (Elt F) → (⟨S64, .f32⟩ : BufTy).Contents (Elt F)),
    unary main_arg1 main_v40 (sitofp .f32 : (⟨S64, .i32⟩ : BufTy).Contents (Elt F) → (⟨S64, .f32⟩ : BufTy).Contents (Elt F)),
    binary main_arg2 main_v40 main_v41 (Host.divf : (⟨S64, .f32⟩ : BufTy).Contents (Elt F) → (⟨S64, .f32⟩ : BufTy).Contents (Elt F) → (⟨S64, .f32⟩ : BufTy).Contents (Elt F)),
    binary main_v41 main_v39 main_v42 (mulf : (⟨S64, .f32⟩ : BufTy).Contents (Elt F) → (⟨S64, .f32⟩ : BufTy).Contents (Elt F) → (⟨S64, .f32⟩ : BufTy).Contents (Elt F)),
    nullary main_cst_4 (constant S_ .f32 0x00000000#32),
    binary main_v42 main_cst_4 main_v43 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    binary main_v20 main_v43 main_v44 (subf : (⟨S_, .f32⟩ : BufTy).Contents (Elt F) → (⟨S_, .f32⟩ : BufTy).Contents (Elt F) → (⟨S_, .f32⟩ : BufTy).Contents (Elt F)),
    unary main_v44 main_v45 (Host.negf : (⟨S_, .f32⟩ : BufTy).Contents (Elt F) → (⟨S_, .f32⟩ : BufTy).Contents (Elt F)) ]

/-- The first 19: the log-intensities. -/
abbrev opsFirst : List (HloOp τ sig (Elt F)) :=
  [ binary main_arg3 main_arg9 main_v0 ((fun l r => Host.dotGeneral dot_S2048x64x256_S256x32_S2048x64x32_2_0_01_1_n_n none l r) : (⟨S2048x64x256, .f32⟩ : BufTy).Contents (Elt F) → (⟨S256x32, .f32⟩ : BufTy).Contents (Elt F) → (⟨S2048x64x32, .f32⟩ : BufTy).Contents (Elt F)),
    unary main_arg10 main_v1 (broadcastInDim S1x1x32 ![2] bcast_S32_S1x1x32_2 : (⟨S32, .f32⟩ : BufTy).Contents (Elt F) → (⟨S1x1x32, .f32⟩ : BufTy).Contents (Elt F)),
    unary main_v1 main_v2 (broadcastInDim S2048x64x32 ![0, 1, 2] bcast_S1x1x32_S2048x64x32_0_1_2 : (⟨S1x1x32, .f32⟩ : BufTy).Contents (Elt F) → (⟨S2048x64x32, .f32⟩ : BufTy).Contents (Elt F)),
    binary main_v0 main_v2 main_v3 (addf : (⟨S2048x64x32, .f32⟩ : BufTy).Contents (Elt F) → (⟨S2048x64x32, .f32⟩ : BufTy).Contents (Elt F) → (⟨S2048x64x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2048x64x32, .f32⟩) main_call0_v0) (broadcastInDim S2048x64x32 ![] bcast_S_S2048x64x32),
    TRef.binary (TRef.of (T := ⟨S2048x64x32, .f32⟩) main_v3) (TRef.of (T := ⟨S2048x64x32, .f32⟩) main_call0_v0) (TRef.of (T := ⟨S2048x64x32, .f32⟩) main_call0_v1) maximumf,
    TRef.unary (TRef.of (T := ⟨S_, .f32⟩) main_call0_cst) (TRef.of (T := ⟨S2048x64x32, .f32⟩) main_call0_v2) (broadcastInDim S2048x64x32 ![] bcast_S_S2048x64x32),
    TRef.binary (TRef.of (T := ⟨S2048x64x32, .f32⟩) main_v3) (TRef.of (T := ⟨S2048x64x32, .f32⟩) main_call0_v2) (TRef.of (T := ⟨S2048x64x32, .f32⟩) main_call0_v3) subf,
    TRef.binary (TRef.of (T := ⟨S2048x64x32, .f32⟩) main_call0_v3) (TRef.of (T := ⟨S2048x64x32, .f32⟩) main_call0_v3) (TRef.of (T := ⟨S2048x64x32, .i1⟩) main_call0_v4) (cmpf .une),
    TRef.unary (TRef.of (T := ⟨S_, .f32⟩) main_call0_cst) (TRef.of (T := ⟨S2048x64x32, .f32⟩) main_call0_v5) (broadcastInDim S2048x64x32 ![] bcast_S_S2048x64x32),
    TRef.binary (TRef.of (T := ⟨S2048x64x32, .f32⟩) main_v3) (TRef.of (T := ⟨S2048x64x32, .f32⟩) main_call0_v5) (TRef.of (T := ⟨S2048x64x32, .f32⟩) main_call0_v6) addf,
    TRef.unary (TRef.of (T := ⟨S2048x64x32, .f32⟩) main_call0_v3) (TRef.of (T := ⟨S2048x64x32, .f32⟩) main_call0_v7) Host.absf,
    TRef.unary (TRef.of (T := ⟨S2048x64x32, .f32⟩) main_call0_v7) (TRef.of (T := ⟨S2048x64x32, .f32⟩) main_call0_v8) Host.negf,
    TRef.unary (TRef.of (T := ⟨S2048x64x32, .f32⟩) main_call0_v8) (TRef.of (T := ⟨S2048x64x32, .f32⟩) main_call0_v9) Host.exp,
    TRef.unary (TRef.of (T := ⟨S2048x64x32, .f32⟩) main_call0_v9) (TRef.of (T := ⟨S2048x64x32, .f32⟩) main_call0_v10) Host.log1p,
    TRef.binary (TRef.of (T := ⟨S2048x64x32, .f32⟩) main_call0_v1) (TRef.of (T := ⟨S2048x64x32, .f32⟩) main_call0_v10) (TRef.of (T := ⟨S2048x64x32, .f32⟩) main_call0_v11) addf,
    TRef.ternary (TRef.of (T := ⟨S2048x64x32, .i1⟩) main_call0_v4) (TRef.of (T := ⟨S2048x64x32, .f32⟩) main_call0_v6) (TRef.of (T := ⟨S2048x64x32, .f32⟩) main_call0_v11) (TRef.of (T := ⟨S2048x64x32, .f32⟩) main_v4) select,
    unary main_v4 main_v5 (Host.log : (⟨S2048x64x32, .f32⟩ : BufTy).Contents (Elt F) → (⟨S2048x64x32, .f32⟩ : BufTy).Contents (Elt F)) ]

/-- The next 40: up to the masked sum of the gathered log-intensities. -/
abbrev opsMid : List (HloOp τ sig (Elt F)) :=
  [ nullary main_v6 (iotaInDim S2048 32 0),
    unary main_v6 main_v7 (broadcastInDim S1x2048 ![1] bcast_S2048_S1x2048_1 : (⟨S2048, .i32⟩ : BufTy).Contents (Elt F) → (⟨S1x2048, .i32⟩ : BufTy).Contents (Elt F)),
    unary main_arg1 main_v8 (broadcastInDim S64x1 ![0] bcast_S64_S64x1_0 : (⟨S64, .i32⟩ : BufTy).Contents (Elt F) → (⟨S64x1, .i32⟩ : BufTy).Contents (Elt F)),
    unary main_v7 main_v9 (broadcastInDim S64x2048 ![0, 1] bcast_S1x2048_S64x2048_0_1 : (⟨S1x2048, .i32⟩ : BufTy).Contents (Elt F) → (⟨S64x2048, .i32⟩ : BufTy).Contents (Elt F)),
    unary main_v8 main_v10 (broadcastInDim S64x2048 ![0, 1] bcast_S64x1_S64x2048_0_1 : (⟨S64x1, .i32⟩ : BufTy).Contents (Elt F) → (⟨S64x2048, .i32⟩ : BufTy).Contents (Elt F)),
    binary main_v9 main_v10 main_v11 (cmpi .slt : (⟨S64x2048, .i32⟩ : BufTy).Contents (Elt F) → (⟨S64x2048, .i32⟩ : BufTy).Contents (Elt F) → (⟨S64x2048, .i1⟩ : BufTy).Contents (Elt F)),
    unary main_arg0 main_v12 ((extractStridedSlice S64x2047 ![0, 1] · slices_S64x2048_S64x2047_0_1) : (⟨S64x2048, .i32⟩ : BufTy).Contents (Elt F) → (⟨S64x2047, .i32⟩ : BufTy).Contents (Elt F)),
    unary main_arg0 main_v13 ((extractStridedSlice S64x1 ![0, 0] · slices_S64x2048_S64x1_0_0) : (⟨S64x2048, .i32⟩ : BufTy).Contents (Elt F) → (⟨S64x1, .i32⟩ : BufTy).Contents (Elt F)),
    binary main_v12 main_v13 main_v14 ((fun a b => concatenate S64x2048 1 [⟨S64x2047, a⟩, ⟨S64x1, b⟩] concatenates_S64x2047_S64x1_S64x2048_d1) : (⟨S64x2047, .i32⟩ : BufTy).Contents (Elt F) → (⟨S64x1, .i32⟩ : BufTy).Contents (Elt F) → (⟨S64x2048, .i32⟩ : BufTy).Contents (Elt F)),
    unary main_v5 main_v15 ((transpose S64x2048x32 [1, 0, 2] · transposes_S2048x64x32_S64x2048x32_1_0_2) : (⟨S2048x64x32, .f32⟩ : BufTy).Contents (Elt F) → (⟨S64x2048x32, .f32⟩ : BufTy).Contents (Elt F)),
    unary main_v14 main_v16 (broadcastInDim S64x2048x1 ![0, 1] bcast_S64x2048_S64x2048x1_0_1 : (⟨S64x2048, .i32⟩ : BufTy).Contents (Elt F) → (⟨S64x2048x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S64x2048x1, .i32⟩) main_call1_v0) (broadcastInDim S64x2048x1 ![] bcast_S_S64x2048x1),
    TRef.binary (TRef.of (T := ⟨S64x2048x1, .i32⟩) main_v16) (TRef.of (T := ⟨S64x2048x1, .i32⟩) main_call1_v0) (TRef.of (T := ⟨S64x2048x1, .i1⟩) main_call1_v1) (cmpi .slt),
    TRef.nullary (TRef.of (T := ⟨S_, .i32⟩) main_call1_c_0) (constantI S_ 32 32#32),
    TRef.unary (TRef.of (T := ⟨S_, .i32⟩) main_call1_c_0) (TRef.of (T := ⟨S64x2048x1, .i32⟩) main_call1_v2) (broadcastInDim S64x2048x1 ![] bcast_S_S64x2048x1),
    TRef.binary (TRef.of (T := ⟨S64x2048x1, .i32⟩) main_v16) (TRef.of (T := ⟨S64x2048x1, .i32⟩) main_call1_v2) (TRef.of (T := ⟨S64x2048x1, .i32⟩) main_call1_v3) addi,
    TRef.ternary (TRef.of (T := ⟨S64x2048x1, .i1⟩) main_call1_v1) (TRef.of (T := ⟨S64x2048x1, .i32⟩) main_call1_v3) (TRef.of (T := ⟨S64x2048x1, .i32⟩) main_v16) (TRef.of (T := ⟨S64x2048x1, .i32⟩) main_call1_v4) select,
    TRef.reshape (TRef.of (T := ⟨S64x2048x1, .i32⟩) main_call1_v4) (TRef.of (T := ⟨S64x2048x1x1, .i32⟩) main_call1_v5) rfl shapeCasts_S64x2048x1_S64x2048x1x1,
    TRef.nullary (TRef.of (T := ⟨S1, .i32⟩) main_call1_c_1) (constantI S1 32 31#32),
    TRef.nullary (TRef.of (T := ⟨S_, .i32⟩) main_call1_c_2) (constantI S_ 32 0#32),
    TRef.unary (TRef.of (T := ⟨S_, .i32⟩) main_call1_c_2) (TRef.of (T := ⟨S64x2048x1x1, .i32⟩) main_call1_v6) (broadcastInDim S64x2048x1x1 ![] bcast_S_S64x2048x1x1),
    TRef.binary (TRef.of (T := ⟨S64x2048x1x1, .i32⟩) main_call1_v5) (TRef.of (T := ⟨S64x2048x1x1, .i32⟩) main_call1_v6) (TRef.of (T := ⟨S64x2048x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S64x2048x1x1, .i32⟩) main_call1_v9) (broadcastInDim S64x2048x1x1 ![0, 1, 2, 3] bcast_S1x1x1x1_S64x2048x1x1_0_1_2_3),
    TRef.binary (TRef.of (T := ⟨S64x2048x1x1, .i32⟩) main_call1_v5) (TRef.of (T := ⟨S64x2048x1x1, .i32⟩) main_call1_v9) (TRef.of (T := ⟨S64x2048x1x1, .i1⟩) main_call1_v10) (cmpi .sle),
    TRef.binary (TRef.of (T := ⟨S64x2048x1x1, .i1⟩) main_call1_v7) (TRef.of (T := ⟨S64x2048x1x1, .i1⟩) main_call1_v10) (TRef.of (T := ⟨S64x2048x1x1, .i1⟩) main_call1_v11) andi,
    TRef.nullary (TRef.of (T := ⟨S_, .i1⟩) main_call1_c_3) (constantI S_ 1 1#1),
    TRef.binary (TRef.of (T := ⟨S64x2048x1x1, .i1⟩) main_call1_v11) (TRef.of (T := ⟨S_, .i1⟩) main_call1_c_3) (TRef.of (T := ⟨S64x2048x1, .i1⟩) main_call1_v12) (fun x v => Host.reduce IntOp.andi x v reducesTo_S64x2048x1x1_S64x2048x1_d3 h_S_),
    TRef.binary (TRef.of (T := ⟨S64x2048x32, .f32⟩) main_v15) (TRef.of (T := ⟨S64x2048x1x1, .i32⟩) main_call1_v5) (TRef.of (T := ⟨S64x2048x1, .f32⟩) main_call1_v13) (fun x i => Host.gather gather_S64x2048x32_S64x2048x1x1_S64x2048x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S64x2048x1, .f32⟩) main_call1_v14) (broadcastInDim S64x2048x1 ![] bcast_S_S64x2048x1),
    TRef.ternary (TRef.of (T := ⟨S64x2048x1, .i1⟩) main_call1_v12) (TRef.of (T := ⟨S64x2048x1, .f32⟩) main_call1_v13) (TRef.of (T := ⟨S64x2048x1, .f32⟩) main_call1_v14) (TRef.of (T := ⟨S64x2048x1, .f32⟩) main_v17) select,
    reshape main_v17 main_v18 rfl shapeCasts_S64x2048x1_S64x2048,
    nullary main_cst (constant S_ .f32 0x00000000#32),
    TRef.unary (TRef.of (T := ⟨S_, .f32⟩) main_cst) (TRef.of (T := ⟨S_, .f32⟩) main_call2_v0) id,
    TRef.unary (TRef.of (T := ⟨S_, .f32⟩) main_call2_v0) (TRef.of (T := ⟨S64x2048, .f32⟩) main_call2_v1) (broadcastInDim S64x2048 ![] bcast_S_S64x2048),
    TRef.ternary (TRef.of (T := ⟨S64x2048, .i1⟩) main_v11) (TRef.of (T := ⟨S64x2048, .f32⟩) main_v18) (TRef.of (T := ⟨S64x2048, .f32⟩) main_call2_v1) (TRef.of (T := ⟨S64x2048, .f32⟩) main_v19) select,
    nullary main_cst_0 (constant S_ .f32 0x00000000#32),
    binary main_v19 main_cst_0 main_v20 ((fun x v => Host.reduceAdd x v reducesTo_S64x2048_S_d0_1 h_S_) : (⟨S64x2048, .f32⟩ : BufTy).Contents (Elt F) → (⟨S_, .f32⟩ : BufTy).Contents (Elt F) → (⟨S_, .f32⟩ : BufTy).Contents (Elt F)) ]

/-- The last 44: the simulated intensities, their weighted masked sums, and the difference. -/
abbrev opsLast : List (HloOp τ sig (Elt F)) :=
  [ binary main_arg4 main_arg5 main_v21 (subf : (⟨S2048x64x256, .f32⟩ : BufTy).Contents (Elt F) → (⟨S2048x64x256, .f32⟩ : BufTy).Contents (Elt F) → (⟨S2048x64x256, .f32⟩ : BufTy).Contents (Elt F)),
    unary main_arg7 main_v22 (Host.negf : (⟨S2048x64x256, .f32⟩ : BufTy).Contents (Elt F) → (⟨S2048x64x256, .f32⟩ : BufTy).Contents (Elt F)),
    unary main_arg8 main_v23 (broadcastInDim S2048x64x1 ![0, 1] bcast_S2048x64_S2048x64x1_0_1 : (⟨S2048x64, .f32⟩ : BufTy).Contents (Elt F) → (⟨S2048x64x1, .f32⟩ : BufTy).Contents (Elt F)),
    unary main_v23 main_v24 (broadcastInDim S2048x64x256 ![0, 1, 2] bcast_S2048x64x1_S2048x64x256_0_1_2 : (⟨S2048x64x1, .f32⟩ : BufTy).Contents (Elt F) → (⟨S2048x64x256, .f32⟩ : BufTy).Contents (Elt F)),
    binary main_v22 main_v24 main_v25 (mulf : (⟨S2048x64x256, .f32⟩ : BufTy).Contents (Elt F) → (⟨S2048x64x256, .f32⟩ : BufTy).Contents (Elt F) → (⟨S2048x64x256, .f32⟩ : BufTy).Contents (Elt F)),
    unary main_v25 main_v26 (Host.exp : (⟨S2048x64x256, .f32⟩ : BufTy).Contents (Elt F) → (⟨S2048x64x256, .f32⟩ : BufTy).Contents (Elt F)),
    binary main_v21 main_v26 main_v27 (mulf : (⟨S2048x64x256, .f32⟩ : BufTy).Contents (Elt F) → (⟨S2048x64x256, .f32⟩ : BufTy).Contents (Elt F) → (⟨S2048x64x256, .f32⟩ : BufTy).Contents (Elt F)),
    binary main_arg5 main_v27 main_v28 (addf : (⟨S2048x64x256, .f32⟩ : BufTy).Contents (Elt F) → (⟨S2048x64x256, .f32⟩ : BufTy).Contents (Elt F) → (⟨S2048x64x256, .f32⟩ : BufTy).Contents (Elt F)),
    unary main_v28 main_v29 (Host.tanh : (⟨S2048x64x256, .f32⟩ : BufTy).Contents (Elt F) → (⟨S2048x64x256, .f32⟩ : BufTy).Contents (Elt F)),
    binary main_arg6 main_v29 main_v30 (mulf : (⟨S2048x64x256, .f32⟩ : BufTy).Contents (Elt F) → (⟨S2048x64x256, .f32⟩ : BufTy).Contents (Elt F) → (⟨S2048x64x256, .f32⟩ : BufTy).Contents (Elt F)),
    binary main_v30 main_arg9 main_v31 ((fun l r => Host.dotGeneral dot_S2048x64x256_S256x32_S2048x64x32_2_0_01_1_n_n none l r) : (⟨S2048x64x256, .f32⟩ : BufTy).Contents (Elt F) → (⟨S256x32, .f32⟩ : BufTy).Contents (Elt F) → (⟨S2048x64x32, .f32⟩ : BufTy).Contents (Elt F)),
    unary main_arg10 main_v32 (broadcastInDim S1x1x32 ![2] bcast_S32_S1x1x32_2 : (⟨S32, .f32⟩ : BufTy).Contents (Elt F) → (⟨S1x1x32, .f32⟩ : BufTy).Contents (Elt F)),
    unary main_v32 main_v33 (broadcastInDim S2048x64x32 ![0, 1, 2] bcast_S1x1x32_S2048x64x32_0_1_2 : (⟨S1x1x32, .f32⟩ : BufTy).Contents (Elt F) → (⟨S2048x64x32, .f32⟩ : BufTy).Contents (Elt F)),
    binary main_v31 main_v33 main_v34 (addf : (⟨S2048x64x32, .f32⟩ : BufTy).Contents (Elt F) → (⟨S2048x64x32, .f32⟩ : BufTy).Contents (Elt F) → (⟨S2048x64x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S2048x64x32, .f32⟩) main_call3_v0) (broadcastInDim S2048x64x32 ![] bcast_S_S2048x64x32),
    TRef.binary (TRef.of (T := ⟨S2048x64x32, .f32⟩) main_v34) (TRef.of (T := ⟨S2048x64x32, .f32⟩) main_call3_v0) (TRef.of (T := ⟨S2048x64x32, .f32⟩) main_call3_v1) maximumf,
    TRef.unary (TRef.of (T := ⟨S_, .f32⟩) main_call3_cst) (TRef.of (T := ⟨S2048x64x32, .f32⟩) main_call3_v2) (broadcastInDim S2048x64x32 ![] bcast_S_S2048x64x32),
    TRef.binary (TRef.of (T := ⟨S2048x64x32, .f32⟩) main_v34) (TRef.of (T := ⟨S2048x64x32, .f32⟩) main_call3_v2) (TRef.of (T := ⟨S2048x64x32, .f32⟩) main_call3_v3) subf,
    TRef.binary (TRef.of (T := ⟨S2048x64x32, .f32⟩) main_call3_v3) (TRef.of (T := ⟨S2048x64x32, .f32⟩) main_call3_v3) (TRef.of (T := ⟨S2048x64x32, .i1⟩) main_call3_v4) (cmpf .une),
    TRef.unary (TRef.of (T := ⟨S_, .f32⟩) main_call3_cst) (TRef.of (T := ⟨S2048x64x32, .f32⟩) main_call3_v5) (broadcastInDim S2048x64x32 ![] bcast_S_S2048x64x32),
    TRef.binary (TRef.of (T := ⟨S2048x64x32, .f32⟩) main_v34) (TRef.of (T := ⟨S2048x64x32, .f32⟩) main_call3_v5) (TRef.of (T := ⟨S2048x64x32, .f32⟩) main_call3_v6) addf,
    TRef.unary (TRef.of (T := ⟨S2048x64x32, .f32⟩) main_call3_v3) (TRef.of (T := ⟨S2048x64x32, .f32⟩) main_call3_v7) Host.absf,
    TRef.unary (TRef.of (T := ⟨S2048x64x32, .f32⟩) main_call3_v7) (TRef.of (T := ⟨S2048x64x32, .f32⟩) main_call3_v8) Host.negf,
    TRef.unary (TRef.of (T := ⟨S2048x64x32, .f32⟩) main_call3_v8) (TRef.of (T := ⟨S2048x64x32, .f32⟩) main_call3_v9) Host.exp,
    TRef.unary (TRef.of (T := ⟨S2048x64x32, .f32⟩) main_call3_v9) (TRef.of (T := ⟨S2048x64x32, .f32⟩) main_call3_v10) Host.log1p,
    TRef.binary (TRef.of (T := ⟨S2048x64x32, .f32⟩) main_call3_v1) (TRef.of (T := ⟨S2048x64x32, .f32⟩) main_call3_v10) (TRef.of (T := ⟨S2048x64x32, .f32⟩) main_call3_v11) addf,
    TRef.ternary (TRef.of (T := ⟨S2048x64x32, .i1⟩) main_call3_v4) (TRef.of (T := ⟨S2048x64x32, .f32⟩) main_call3_v6) (TRef.of (T := ⟨S2048x64x32, .f32⟩) main_call3_v11) (TRef.of (T := ⟨S2048x64x32, .f32⟩) main_v35) select,
    nullary main_cst_1 (constant S_ .f32 0x00000000#32),
    binary main_v35 main_cst_1 main_v36 ((fun x v => Host.reduceAdd x v reducesTo_S2048x64x32_S2048x64_d2 h_S_) : (⟨S2048x64x32, .f32⟩ : BufTy).Contents (Elt F) → (⟨S_, .f32⟩ : BufTy).Contents (Elt F) → (⟨S2048x64, .f32⟩ : BufTy).Contents (Elt F)),
    unary main_v36 main_v37 ((transpose S64x2048 [1, 0] · transposes_S2048x64_S64x2048_1_0) : (⟨S2048x64, .f32⟩ : BufTy).Contents (Elt F) → (⟨S64x2048, .f32⟩ : BufTy).Contents (Elt F)),
    nullary main_cst_2 (constant S_ .f32 0x00000000#32),
    TRef.unary (TRef.of (T := ⟨S_, .f32⟩) main_cst_2) (TRef.of (T := ⟨S_, .f32⟩) main_call4_v0) id,
    TRef.unary (TRef.of (T := ⟨S_, .f32⟩) main_call4_v0) (TRef.of (T := ⟨S64x2048, .f32⟩) main_call4_v1) (broadcastInDim S64x2048 ![] bcast_S_S64x2048),
    TRef.ternary (TRef.of (T := ⟨S64x2048, .i1⟩) main_v11) (TRef.of (T := ⟨S64x2048, .f32⟩) main_v37) (TRef.of (T := ⟨S64x2048, .f32⟩) main_call4_v1) (TRef.of (T := ⟨S64x2048, .f32⟩) main_v38) select,
    nullary main_cst_3 (constant S_ .f32 0x00000000#32),
    binary main_v38 main_cst_3 main_v39 ((fun x v => Host.reduceAdd x v reducesTo_S64x2048_S64_d1 h_S_) : (⟨S64x2048, .f32⟩ : BufTy).Contents (Elt F) → (⟨S_, .f32⟩ : BufTy).Contents (Elt F) → (⟨S64, .f32⟩ : BufTy).Contents (Elt F)),
    unary main_arg1 main_v40 (sitofp .f32 : (⟨S64, .i32⟩ : BufTy).Contents (Elt F) → (⟨S64, .f32⟩ : BufTy).Contents (Elt F)),
    binary main_arg2 main_v40 main_v41 (Host.divf : (⟨S64, .f32⟩ : BufTy).Contents (Elt F) → (⟨S64, .f32⟩ : BufTy).Contents (Elt F) → (⟨S64, .f32⟩ : BufTy).Contents (Elt F)),
    binary main_v41 main_v39 main_v42 (mulf : (⟨S64, .f32⟩ : BufTy).Contents (Elt F) → (⟨S64, .f32⟩ : BufTy).Contents (Elt F) → (⟨S64, .f32⟩ : BufTy).Contents (Elt F)),
    nullary main_cst_4 (constant S_ .f32 0x00000000#32),
    binary main_v42 main_cst_4 main_v43 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    binary main_v20 main_v43 main_v44 (subf : (⟨S_, .f32⟩ : BufTy).Contents (Elt F) → (⟨S_, .f32⟩ : BufTy).Contents (Elt F) → (⟨S_, .f32⟩ : BufTy).Contents (Elt F)),
    unary main_v44 main_v45 (Host.negf : (⟨S_, .f32⟩ : BufTy).Contents (Elt F) → (⟨S_, .f32⟩ : BufTy).Contents (Elt F)) ]

theorem ops_split : (ops : List (HloOp τ sig (Elt F))) = opsFirst ++ (opsMid ++ opsLast) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., unary_bufs_sub .., unary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., unary_bufs_sub .., ternary_bufs_sub .., nullary_bufs_sub .., binary_bufs_sub .., binary_bufs_sub .., unary_bufs_sub .., unary_bufs_sub .., unary_bufs_sub .., binary_bufs_sub .., unary_bufs_sub .., binary_bufs_sub .., binary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., binary_bufs_sub .., unary_bufs_sub .., nullary_bufs_sub .., unary_bufs_sub .., unary_bufs_sub .., ternary_bufs_sub .., nullary_bufs_sub .., binary_bufs_sub .., unary_bufs_sub .., binary_bufs_sub .., binary_bufs_sub .., nullary_bufs_sub .., binary_bufs_sub .., binary_bufs_sub .., unary_bufs_sub ..⟩

/-- The contents after two stretches run one after the other are the second's from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The first stretch, from any contents -/

section First
variable (W : Valuation τ sig (Elt F))

set_option maxRecDepth 8192 in
set_option maxHeartbeats 8000000 in
/-- It leaves the log-intensities: that stage of the inputs it found. -/
theorem first_v5 : after opsFirst W (Proc.devRef .tc main_v5)
    = val_main_v5 (F := F) (W (Proc.devRef .tc main_arg3)) (W (Proc.devRef .tc main_arg9)) (W (Proc.devRef .tc main_arg10)) := by
  after_results_simp <;> rfl

set_option maxRecDepth 8192 in
set_option maxHeartbeats 8000000 in
theorem first_arg0 : after opsFirst W (Proc.devRef .tc main_arg0) = W (Proc.devRef .tc main_arg0) := by after_results_simp <;> rfl
set_option maxRecDepth 8192 in
set_option maxHeartbeats 8000000 in
theorem first_arg1 : after opsFirst W (Proc.devRef .tc main_arg1) = W (Proc.devRef .tc main_arg1) := by after_results_simp <;> rfl
set_option maxRecDepth 8192 in
set_option maxHeartbeats 8000000 in
theorem first_arg2 : after opsFirst W (Proc.devRef .tc main_arg2) = W (Proc.devRef .tc main_arg2) := by after_results_simp <;> rfl
set_option maxRecDepth 8192 in
set_option maxHeartbeats 8000000 in
theorem first_arg4 : after opsFirst W (Proc.devRef .tc main_arg4) = W (Proc.devRef .tc main_arg4) := by after_results_simp <;> rfl
set_option maxRecDepth 8192 in
set_option maxHeartbeats 8000000 in
theorem first_arg5 : after opsFirst W (Proc.devRef .tc main_arg5) = W (Proc.devRef .tc main_arg5) := by after_results_simp <;> rfl
set_option maxRecDepth 8192 in
set_option maxHeartbeats 8000000 in
theorem first_arg6 : after opsFirst W (Proc.devRef .tc main_arg6) = W (Proc.devRef .tc main_arg6) := by after_results_simp <;> rfl
set_option maxRecDepth 8192 in
set_option maxHeartbeats 8000000 in
theorem first_arg7 : after opsFirst W (Proc.devRef .tc main_arg7) = W (Proc.devRef .tc main_arg7) := by after_results_simp <;> rfl
set_option maxRecDepth 8192 in
set_option maxHeartbeats 8000000 in
theorem first_arg8 : after opsFirst W (Proc.devRef .tc main_arg8) = W (Proc.devRef .tc main_arg8) := by after_results_simp <;> rfl
set_option maxRecDepth 8192 in
set_option maxHeartbeats 8000000 in
theorem first_arg9 : after opsFirst W (Proc.devRef .tc main_arg9) = W (Proc.devRef .tc main_arg9) := by after_results_simp <;> rfl
set_option maxRecDepth 8192 in
set_option maxHeartbeats 8000000 in
theorem first_arg10 : after opsFirst W (Proc.devRef .tc main_arg10) = W (Proc.devRef .tc main_arg10) := by after_results_simp <;> rfl

end First

/-! ## The two reshapes, with their shapes written out

A reshape keeps every element at its row-major position, so its result is the operand re-indexed at the result's shape:
`[64, 2048, 1] → [64, 2048, 1, 1]` for the gather's indices, `[64, 2048, 1] → [64, 2048]` for the gathered values. -/

theorem reshape_gatherIndex (W : Valuation τ sig (Elt F)) :
    (TRef.reshape (τ := τ) (Val := Elt F) (TRef.of (T := ⟨S64x2048x1, .i32⟩) main_call1_v4) (TRef.of (T := ⟨S64x2048x1x1, .i32⟩) main_call1_v5) rfl shapeCasts_S64x2048x1_S64x2048x1x1).result W (no_index (Proc.devRef .tc main_call1_v5))
      = shapeCast S64x2048x1x1 (W (Proc.devRef .tc main_call1_v4)) shapeCasts_S64x2048x1_S64x2048x1x1 := by
  rw [reshape_result']
  rfl

theorem reshape_gathered (W : Valuation τ sig (Elt F)) :
    (reshape (τ := τ) (Val := Elt F) main_v17 main_v18 rfl shapeCasts_S64x2048x1_S64x2048).result W (no_index (Proc.devRef .tc main_v18))
      = shapeCast S64x2048 (W (Proc.devRef .tc main_v17)) shapeCasts_S64x2048x1_S64x2048 := by
  rw [reshape_result']
  rfl

/-! ## The middle stretch, from contents that hold the log-intensities -/

section Mid
variable (W : Valuation τ sig (Elt F))

-- the gather's range mask is the conjunction, along a unit axis, of the tests `0 ≤ index` and `index ≤ 31`: it is one
-- function of the two tests, and the two tests are the same on both sides
attribute [local irreducible] Host.reduce

set_option maxRecDepth 8192 in
set_option maxHeartbeats 8000000 in
/-- From contents holding the log-intensities of `x3, x9, x10` and the inputs `x0, x1`, it leaves the masked sum of the
    gathered log-intensities: that stage of those inputs. -/
theorem mid_v20 (x0 : (⟨S64x2048, .i32⟩ : BufTy).Contents (Elt F)) (x1 : (⟨S64, .i32⟩ : BufTy).Contents (Elt F)) (x3 : (⟨S2048x64x256, .f32⟩ : BufTy).Contents (Elt F)) (x9 : (⟨S256x32, .f32⟩ : BufTy).Contents (Elt F)) (x10 : (⟨S32, .f32⟩ : BufTy).Contents (Elt F))
    (h0 : x0 = W (Proc.devRef .tc main_arg0)) (h1 : x1 = W (Proc.devRef .tc main_arg1))
    (h5 : W (Proc.devRef .tc main_v5) = val_main_v5 (F := F) x3 x9 x10) :
    after opsMid W (Proc.devRef .tc main_v20) = val_main_v20 (F := F) x0 x1 x3 x9 x10 := by
  subst h0 h1
  simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered]
  rw [h5]
  rfl

set_option maxRecDepth 8192 in
set_option maxHeartbeats 8000000 in
/-- It leaves the length mask. -/
theorem mid_v11 : after opsMid W (Proc.devRef .tc main_v11) = val_main_v11 (F := F) (W (Proc.devRef .tc main_arg1)) := by
  simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered] <;> rfl

set_option maxRecDepth 8192 in
set_option maxHeartbeats 8000000 in
theorem mid_arg1 : after opsMid W (Proc.devRef .tc main_arg1) = W (Proc.devRef .tc main_arg1) := by simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered] <;> rfl
set_option maxRecDepth 8192 in
set_option maxHeartbeats 8000000 in
theorem mid_arg2 : after opsMid W (Proc.devRef .tc main_arg2) = W (Proc.devRef .tc main_arg2) := by simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered] <;> rfl
set_option maxRecDepth 8192 in
set_option maxHeartbeats 8000000 in
theorem mid_arg4 : after opsMid W (Proc.devRef .tc main_arg4) = W (Proc.devRef .tc main_arg4) := by simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered] <;> rfl
set_option maxRecDepth 8192 in
set_option maxHeartbeats 8000000 in
theorem mid_arg5 : after opsMid W (Proc.devRef .tc main_arg5) = W (Proc.devRef .tc main_arg5) := by simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered] <;> rfl
set_option maxRecDepth 8192 in
set_option maxHeartbeats 8000000 in
theorem mid_arg6 : after opsMid W (Proc.devRef .tc main_arg6) = W (Proc.devRef .tc main_arg6) := by simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered] <;> rfl
set_option maxRecDepth 8192 in
set_option maxHeartbeats 8000000 in
theorem mid_arg7 : after opsMid W (Proc.devRef .tc main_arg7) = W (Proc.devRef .tc main_arg7) := by simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered] <;> rfl
set_option maxRecDepth 8192 in
set_option maxHeartbeats 8000000 in
theorem mid_arg8 : after opsMid W (Proc.devRef .tc main_arg8) = W (Proc.devRef .tc main_arg8) := by simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered] <;> rfl
set_option maxRecDepth 8192 in
set_option maxHeartbeats 8000000 in
theorem mid_arg9 : after opsMid W (Proc.devRef .tc main_arg9) = W (Proc.devRef .tc main_arg9) := by simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered] <;> rfl
set_option maxRecDepth 8192 in
set_option maxHeartbeats 8000000 in
theorem mid_arg10 : after opsMid W (Proc.devRef .tc main_arg10) = W (Proc.devRef .tc main_arg10) := by simp (disch := decide) only [after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', reshape_gatherIndex, reshape_gathered] <;> rfl

end Mid

/-! ## The last stretch, from contents that hold what the earlier ones left -/

set_option maxRecDepth 8192 in
set_option maxHeartbeats 8000000 in
/-- From contents holding the middle stretch's scalar and mask of inputs `x0 … x10`, and the inputs themselves, the last
    stretch leaves the program's result stage of those inputs. -/
theorem last_v45 (W : Valuation τ sig (Elt F))
    (x0 : (⟨S64x2048, .i32⟩ : BufTy).Contents (Elt F)) (x1 : (⟨S64, .i32⟩ : BufTy).Contents (Elt F)) (x2 : (⟨S64, .f32⟩ : BufTy).Contents (Elt F)) (x3 : (⟨S2048x64x256, .f32⟩ : BufTy).Contents (Elt F)) (x4 : (⟨S2048x64x256, .f32⟩ : BufTy).Contents (Elt F)) (x5 : (⟨S2048x64x256, .f32⟩ : BufTy).Contents (Elt F)) (x6 : (⟨S2048x64x256, .f32⟩ : BufTy).Contents (Elt F)) (x7 : (⟨S2048x64x256, .f32⟩ : BufTy).Contents (Elt F)) (x8 : (⟨S2048x64, .f32⟩ : BufTy).Contents (Elt F)) (x9 : (⟨S256x32, .f32⟩ : BufTy).Contents (Elt F)) (x10 : (⟨S32, .f32⟩ : BufTy).Contents (Elt F))
    (h1 : x1 = W (Proc.devRef .tc main_arg1)) (h2 : x2 = W (Proc.devRef .tc main_arg2)) (h4 : x4 = W (Proc.devRef .tc main_arg4)) (h5 : x5 = W (Proc.devRef .tc main_arg5)) (h6 : x6 = W (Proc.devRef .tc main_arg6)) (h7 : x7 = W (Proc.devRef .tc main_arg7)) (h8 : x8 = W (Proc.devRef .tc main_arg8)) (h9 : x9 = W (Proc.devRef .tc main_arg9)) (h10 : x10 = W (Proc.devRef .tc main_arg10))
    (h20 : W (Proc.devRef .tc main_v20) = val_main_v20 (F := F) x0 x1 x3 x9 x10)
    (h11 : W (Proc.devRef .tc main_v11) = val_main_v11 (F := F) x1) :
    after opsLast W (Proc.devRef .tc main_v45) = val_main_v45 (F := F) x0 x1 x2 x3 x4 x5 x6 x7 x8 x9 x10 := by
  subst h1 h2 h4 h5 h6 h7 h8 h9 h10
  after_results_simp
  rw [h20, h11]
  rfl

/-! ## The run -/

/-- The result's value after all 103 operations. -/
theorem value (m : (ℓ : Loc nD τ sig) → Buf (Elt F) ℓ) (c : Dev nD) :
    after (ops (F := F)) (launchContents m c) (Proc.devRef .tc main_v45)
      = val_main_v45 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [ops_split, after_append, after_append]
  refine last_v45 (after opsMid (after opsFirst (launchContents m c))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ((mid_arg1 (after opsFirst (launchContents m c))).trans (first_arg1 (launchContents m c))).symm ((mid_arg2 (after opsFirst (launchContents m c))).trans (first_arg2 (launchContents m c))).symm ((mid_arg4 (after opsFirst (launchContents m c))).trans (first_arg4 (launchContents m c))).symm ((mid_arg5 (after opsFirst (launchContents m c))).trans (first_arg5 (launchContents m c))).symm ((mid_arg6 (after opsFirst (launchContents m c))).trans (first_arg6 (launchContents m c))).symm ((mid_arg7 (after opsFirst (launchContents m c))).trans (first_arg7 (launchContents m c))).symm ((mid_arg8 (after opsFirst (launchContents m c))).trans (first_arg8 (launchContents m c))).symm ((mid_arg9 (after opsFirst (launchContents m c))).trans (first_arg9 (launchContents m c))).symm ((mid_arg10 (after opsFirst (launchContents m c))).trans (first_arg10 (launchContents m c))).symm ?_ ?_
  · exact mid_v20 (after opsFirst (launchContents m c)) (m ((c.tc : Thread nD τ).loc main_arg0)) (m ((c.tc : Thread nD τ).loc main_arg1)) (m ((c.tc : Thread nD τ).loc main_arg3)) (m ((c.tc : Thread nD τ).loc main_arg9)) (m ((c.tc : Thread nD τ).loc main_arg10))
      (first_arg0 (launchContents m c)).symm (first_arg1 (launchContents m c)).symm (first_v5 (launchContents m c))
  · exact (mid_v11 (after opsFirst (launchContents m c))).trans (congrArg (val_main_v11 (F := F)) (first_arg1 (launchContents m c)))

set_option maxRecDepth 8192 in
set_option maxHeartbeats 41200000 in
/-- On every device, for any float values, from any memory with zero counters: every weakly fair execution of
    @main terminates with the result at its stage of the inputs and the inputs unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = val_main_v45 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v45).trans (value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.ReferenceIdeal.RefRun

end
-- ==== Proof.lean ====
/-
  Equivalence of a streaming log-likelihood kernel and its array-level reference on the extended reals.

  Both programs compute the negative log-likelihood of a batch of event sequences under a continuous-time LSTM:
  `−(Σ_b Σ_{t < len_b} log λ[t, b, event_b(t+1)] − Σ_b (T_b / len_b) Σ_{t < len_b} Σ_k λ̃[t, b, k])`, where
  `λ = softplus (hidden · W + bias)` and `λ̃` is the same layer on the hidden state decayed to a simulated time. The
  kernel computes `log λ` and `Σ_k λ̃` in one pass over blocks of 16 time steps, as matrix products of 1024 rows, and
  leaves the gather, the masks and the sums to host operations; the reference computes everything with whole-array
  operations. With floats read as extended reals and operations exact the two agree: the two arrays the kernel's
  region leaves are the arrays the reference computes (a product of flattened rows is the contraction, a change of
  float format is the identity, `0 − x` is `−x`, and the guard of softplus is the same test on both sides), and the
  host operations that follow are the reference's own, so both results are one function of the inputs. No finiteness
  of the inputs is used.

  The three frames are the programs' runs with the results dropped; the kernel's idealization rewrote nothing.
-/
import proofs.«117084_j9569187136166_1_alg».proof.Defs
import proofs.«117084_j9569187136166_1_alg».proof.Proof.Gen.Kernel
import proofs.«117084_j9569187136166_1_alg».proof.Proof.Gen.Kernel.Skeleton
import proofs.«117084_j9569187136166_1_alg».proof.Proof.Gen.Kernel.Launch
import proofs.«117084_j9569187136166_1_alg».proof.Proof.Gen.Kernel.Points
import proofs.«117084_j9569187136166_1_alg».proof.Proof.Gen.Kernel.Frame
import proofs.«117084_j9569187136166_1_alg».proof.Proof.Gen.KernelIdeal
import proofs.«117084_j9569187136166_1_alg».proof.Proof.Gen.KernelIdeal.Skeleton
import proofs.«117084_j9569187136166_1_alg».proof.Proof.Gen.KernelIdeal.Launch
import proofs.«117084_j9569187136166_1_alg».proof.Proof.Gen.KernelIdeal.Points
import proofs.«117084_j9569187136166_1_alg».proof.Proof.Gen.KernelIdeal.Frame
import proofs.«117084_j9569187136166_1_alg».proof.Proof.Gen.ReferenceIdeal
import proofs.«117084_j9569187136166_1_alg».proof.Proof.Gen.Pre_finite_inputs
import proofs.«117084_j9569187136166_1_alg».proof.Proof.KernelRun
import proofs.«117084_j9569187136166_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end with the reference's result stage of the (agreeing) inputs. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
